-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192 : Shape := ⟨1, ![8192]⟩
abbrev S_ : Shape := ⟨0, ![]⟩
abbrev S64 : Shape := ⟨1, ![64]⟩
abbrev S8192x1 : Shape := ⟨2, ![8192, 1]⟩
abbrev S1x8192 : Shape := ⟨2, ![1, 8192]⟩
abbrev S1024x1024 : Shape := ⟨2, ![1024, 1024]⟩
abbrev S1024 : Shape := ⟨1, ![1024]⟩
abbrev S1024x1 : Shape := ⟨2, ![1024, 1]⟩
abbrev S8x8x128 : Shape := ⟨3, ![8, 8, 128]⟩
abbrev S1x1024 : Shape := ⟨2, ![1, 1024]⟩
abbrev S1x8x128 : Shape := ⟨3, ![1, 8, 128]⟩
abbrev S1x1 : Shape := ⟨2, ![1, 1]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩

abbrev nBuf : Space → Nat
  | .hbm => 41
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S_, .f32⟩
  | .hbm, ⟨3, _⟩ => ⟨S64, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S_, .f32⟩
  | .hbm, ⟨13, _⟩ => ⟨S8192, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .i1⟩
  | .hbm, ⟨18, _⟩ => ⟨S64, .i32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S8192x1, .i32⟩
  | .hbm, ⟨30, _⟩ => ⟨S8192, .f32⟩
  | .hbm, ⟨31, _⟩ => ⟨S8192x1, .i32⟩
  | .hbm, ⟨32, _⟩ => ⟨S1x8192, .i32⟩
  | .hbm, ⟨33, _⟩ => ⟨S8192x1, .f32⟩
  | .hbm, ⟨34, _⟩ => ⟨S8192x1024, .bf16⟩
  | .hbm, ⟨35, _⟩ => ⟨S8x8x128, .f32⟩
  | .hbm, ⟨36, _⟩ => ⟨S8x1x1, .f32⟩
  | .hbm, ⟨37, _⟩ => ⟨S8, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1x8x128, .f32⟩
  | .local _ .vmem, ⟨15, _⟩ => ⟨S1x8x128, .f32⟩
  | .local _ .vmem, ⟨16, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_20 : BitVec 32 := 0#32
  let v48 : BitVec 1 := Scalar.cmpi .ne v47 c0_i32_20
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S64 : S_.BroadcastsInDim S64 (![] : Fin 0 → Fin S64.rank)
  bcast_S_S8192 : S_.BroadcastsInDim S8192 (![] : Fin 0 → Fin S8192.rank)
  bcast_S8192_S8192x1_0 : S8192.BroadcastsInDim S8192x1 (![0] : Fin 1 → Fin S8192x1.rank)
  natLt_1_32 : 1 < 32
  reducesTo_S64_S_d0 : S64.ReducesTo [0] S_
  h_S_ : 0 < S_.numel
  shapeCasts_S8192_S8192x1 : S8192.ShapeCasts S8192x1
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1_S1 : S1024x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S8x8x128_S8x1x1_0_0_0 : S8x8x128.Slices ![0, 0, 0] S8x1x1
  shapeCasts_S8x1x1_S8 : S8x1x1.ShapeCasts S8
  reducesTo_S8_S_d0 : S8.ReducesTo [0] S_
  scatter_S64_S8192x1_S8192_n_0_0_1_wf : ScatterDims.WF S64 S8192x1 S8192 [] [0] [0] 1
  gather_S64_S8192x1_S8192_n_0_n_n_0_1_1_wf : GatherDims.WF S64 S8192x1 S8192 [] [0] [] [0] [] 1 ![1]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x128.size a ≤ S8x8x128.size a
  hwx1_5 : ∀ i : grid1.Coords, EltTy.bits .f32 = 32 ∨ (Rect.block (s := S8x8x128) S1x8x128.size (cc1_transform_5 i) (hinb1_5 i)).WholeWords (EltTy.packing .f32)

variable [Facts₀]

def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v24) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩
abbrev S64 : Shape := ⟨1, ![64]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x8192, .f32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x8192, .i1⟩
  | .hbm, ⟨25, _⟩ => ⟨S8192x8192, .i1⟩
  | .hbm, ⟨26, _⟩ => ⟨S_, .f32⟩
  | .hbm, ⟨27, _⟩ => ⟨S64, .f32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S_, .f32⟩
  | .hbm, ⟨37, _⟩ => ⟨S8192, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .i1⟩
  | .hbm, ⟨42, _⟩ => ⟨S64, .i32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S_, .f32⟩
  | .hbm, ⟨68, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S_S64 : S_.BroadcastsInDim S64 (![] : Fin 0 → Fin S64.rank)
  bcast_S_S8192 : S_.BroadcastsInDim S8192 (![] : Fin 0 → Fin S8192.rank)
  natLt_1_32 : 1 < 32
  reducesTo_S64_S_d0 : S64.ReducesTo [0] S_
  reducesTo_S8192x8192_S_d0_1 : S8192x8192.ReducesTo [0, 1] S_
  dot_S8192x1024_S8192x1024_S8192x8192_1_1_0_0_n_n_wf : DotDims.WF S8192x1024 S8192x1024 S8192x8192 [1] [1] [0] [0] [] []
  scatter_S64_S8192x1_S8192_n_0_0_1_wf : ScatterDims.WF S64 S8192x1 S8192 [] [0] [0] 1
  gather_S64_S8192x1_S8192_n_0_n_n_0_1_1_wf : GatherDims.WF S64 S8192x1 S8192 [] [0] [] [0] [] 1 ![1]

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf

class Facts : Prop extends Facts₀ where

variable [Facts]
-- ==== Proof.Kernel.Rows.lean ====
/-
  The first kernel region: the rows of the feature matrix are normalized block by block.

  The region's grid has 8 points; at point t the body loads the block of rows 1024 t … 1024 t + 1023 of the
  feature matrix (window 0, read only) and stores the whole block of the output matrix (window 1) at one value
  computed from the loaded block. So the body is one load of the input block, one (unused) load of the output
  buffer and one store covering the output buffer; the input buffer is left as found. The proof data says that
  after the body at point t the input's staging buffer still holds the block and the output's holds the body's
  value of that block; the body owes nothing, and the only state it carries from point to point is what the
  region does not touch.
-/
import proofs.«131435_j72533407695362_1_alg».proof.Proof.Gen.Kernel.Launch
import proofs.«131435_j72533407695362_1_alg».proof.Proof.Gen.Kernel.Skeleton
import proofs.«131435_j72533407695362_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core
variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is the
    entry contents and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The one rectangle the body reads and writes: a whole 1024 x 1024 buffer. -/
abbrev whole : Rect S1024x1024 := Rect.unit (s := S1024x1024) ![0, 0] S1024x1024.size inb_S1024x1024_S1024x1024_0_0

/-- The output buffer after the body, from the input block: its one store. -/
def outBlock (x0 : Vec F S1024x1024 .f32) : Vec F S1024x1024 .bf16 :=
  View.canon [⟨whole, k0_pay1 (View.ld x0 whole)⟩]

/-- The store covers the buffer. -/
theorem cover (p0 : Vec F S1024x1024 .bf16) (y : S1024x1024.Idx) :
    ∃ pc ∈ ([⟨whole, p0⟩] : List (View.Piece (Elt F) S1024x1024 .bf16)), y ∈ pc.1.set :=
  View.cover_of_tiled [⟨whole, p0⟩] S1024x1024.size (by rfl) y

set_option maxHeartbeats 1000000 in
/-- The body on whole staging buffers, the input's at x0 and the output's at anything, runs to the continuation
    with the input's as it was and the output's at outBlock x0. -/
theorem sound_kernel (c : Dev nD) (E : Set ℕ) (i : grid0.Coords) (arg1 : Memref sig .tc .vmem S1024x1024 .f32) (harg1 : arg1.IsWhole)
    (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-- The region's proof data on core c. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => outBlock (blk V c 0 t)
  Φ _ := Pipeline.ΦA spec0 c
  q _ := fullShare
  owed _ := 0

theorem A_eq (c : Dev nD) (w : Fin cfg0.W) : (dat V c).A w = V c (Pipeline.arrRef spec0 w) := by
  dsimp only [dat]
theorem after_in (c : Dev nD) (t : Fin cfg0.N) : (dat V c).after 0 t = blk V c 0 t := by dsimp only [dat]
theorem after_out (c : Dev nD) (t : Fin cfg0.N) : (dat V c).after 1 t = outBlock (blk V c 0 t) := by dsimp only [dat]
theorem before_in (c : Dev nD) (t : Fin cfg0.N) (d) : (dat V c).before 0 t d = blk V c 0 t :=
  before_in_of V (dat V c) (A_eq V c 0) (after_in V c) t d

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (sound_kernel c Set.univ _ _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline rule, at every point. -/
theorem body_obligation (c : Dev nD) : BodyObligation (dat (F := F) V c) (defs₀ (F := F)) Variants.none () Set.univ := fun t => by
  rw [bigSep_W0, bigSep_W0]
  exact sound_body V c t

end Cert.Kernel.Rows

end
-- ==== Proof.Kernel.PairRuns.lean ====
/-
  The second kernel region's body, run once per control case.

  The region's grid is 8 x 8: point (i, j) handles the pairs of row block i with row block j. The body first, when
  j = 0, resets a one-entry accumulator kept in a scratch buffer; it then loads the two row blocks, the two label
  blocks and the class sizes, computes the block's sum and adds it to the accumulator; and when j = 7 it fills the
  output block with the accumulator's entry. Three cases therefore cover the grid: j = 0 (reset and add), 0 < j < 7
  (add), j = 7 (add and store the output). In each case the body leaves the five input buffers as found; the
  accumulator ends with the case's stores written over what it held; the output buffer is written only when j = 7.
  Each run states what the written buffers end with as the list of the stores' pieces, last first.
-/
import proofs.«131435_j72533407695362_1_alg».proof.Proof.Gen.Kernel.Launch
import proofs.«131435_j72533407695362_1_alg».proof.Proof.Gen.Kernel.Skeleton
import proofs.«131435_j72533407695362_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pairs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, from the grid coordinates -/

/-- "j = 0", as the body computes it from the second grid coordinate. -/
abbrev isFirst (i : grid1.Coords) : Prop :=
  (Scalar.cmpi .ne (Scalar.extui (Scalar.cmpi .eq (BitVec.ofNat 32 (i 1).val) 0#32)) 0#32) = 1#1
/-- "j = 7", as the body computes it. -/
abbrev isLast (i : grid1.Coords) : Prop := k1_cond2 i = 1#1

/-- Point t = 8 i + j has j = 0 exactly when t is a multiple of 8. -/
theorem isFirst_iff : ∀ t : Fin cfg1.N, isFirst (grid1.coords t) ↔ t.val % 8 = 0 :=
  (by decide +kernel : ∀ t : Fin grid1.N, isFirst (grid1.coords t) ↔ t.val % 8 = 0)
/-- and j = 7 exactly when t is 7 modulo 8. -/
theorem isLast_iff : ∀ t : Fin cfg1.N, isLast (grid1.coords t) ↔ t.val % 8 = 7 :=
  (by decide +kernel : ∀ t : Fin grid1.N, isLast (grid1.coords t) ↔ t.val % 8 = 7)

/-! ## The body on any whole staging buffers -/

set_option maxHeartbeats 2000000 in
/-- Case j = 0: the accumulator, at anything, is reset and then receives the block's sum; the output buffer is not
    touched. -/
noncomputable def runFirst (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x8x128 .f32) (harg7 : arg7.IsWhole) (arg8 : Memref sig .tc .vmem S1x1 .f32) (harg8 : arg8.IsWhole) (hc1 : isFirst i) (hc2 : ¬isLast i)
    (x0 : Vec F S1024x1024 .bf16) (x1 : Vec F S1024x1024 .bf16) (x2 : Vec F S1024x1 .i32) (x3 : Vec F S1x1024 .i32) (x4 : Vec F S1024x1 .f32) :
    { L8 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L8)) -∗ K ⟨⟩))
          ⊢ wp frame (wpE (defs₀ (F := F)) Variants.none c none) E (cc1__pairwise_kernel i arg2 harg2 arg3 harg3 arg4 harg4 arg5 harg5 arg6 harg6 arg7 harg7 arg8 harg8) K } := by
  refine ⟨?_, fun E K => ?run⟩
  case run =>
    simp only [cc1__pairwise_kernel_eq_skeleton]; unfold cc1__pairwise_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H8

set_option maxHeartbeats 2000000 in
/-- Case 0 < j < 7: the accumulator, at xs, receives the block's sum; the output buffer is not touched. -/
noncomputable def runMid (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x8x128 .f32) (harg7 : arg7.IsWhole) (arg8 : Memref sig .tc .vmem S1x1 .f32) (harg8 : arg8.IsWhole) (hc1 : ¬isFirst i) (hc2 : ¬isLast i)
    (x0 : Vec F S1024x1024 .bf16) (x1 : Vec F S1024x1024 .bf16) (x2 : Vec F S1024x1 .i32) (x3 : Vec F S1x1024 .i32) (x4 : Vec F S1024x1 .f32) (xs : Vec F S1x1 .f32) :
    { L8 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L8)) -∗ K ⟨⟩))
          ⊢ wp frame (wpE (defs₀ (F := F)) Variants.none c none) E (cc1__pairwise_kernel i arg2 harg2 arg3 harg3 arg4 harg4 arg5 harg5 arg6 harg6 arg7 harg7 arg8 harg8) K } := by
  refine ⟨?_, fun E K => ?run⟩
  case run =>
    simp only [cc1__pairwise_kernel_eq_skeleton]; unfold cc1__pairwise_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf8
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H8

set_option maxHeartbeats 2000000 in
/-- Case j = 7: the accumulator, at xs, receives the block's sum, and the output buffer, at anything, is filled. -/
noncomputable def runLast (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x8x128 .f32) (harg7 : arg7.IsWhole) (arg8 : Memref sig .tc .vmem S1x1 .f32) (harg8 : arg8.IsWhole) (hc1 : ¬isFirst i) (hc2 : isLast i)
    (x0 : Vec F S1024x1024 .bf16) (x1 : Vec F S1024x1024 .bf16) (x2 : Vec F S1024x1 .i32) (x3 : Vec F S1x1024 .i32) (x4 : Vec F S1024x1 .f32) (xs : Vec F S1x1 .f32) :
    { L : List (View.Piece (Elt F) S1x8x128 .f32) × List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2)) -∗ K ⟨⟩))
          ⊢ wp frame (wpE (defs₀ (F := F)) Variants.none c none) E (cc1__pairwise_kernel i arg2 harg2 arg3 harg3 arg4 harg4 arg5 harg5 arg6 harg6 arg7 harg7 arg8 harg8) K } := by
  refine ⟨(?_, ?_), fun E K => ?run⟩
  case run =>
    simp only [cc1__pairwise_kernel_eq_skeleton]; unfold cc1__pairwise_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf8
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    iexists _; iexact H8

end Cert.Kernel.Pairs

end
-- ==== Proof.Kernel.PairData.lean ====
/-
  The second kernel region's proof data and body obligation.

  Point t = 8 i + j of the 8 x 8 grid works on row block i against row block j. Five windows are read only: the two
  row blocks of the normalized matrix (both windows on the one matrix), the labels as a column and as a row, and the
  class sizes as a column; the body leaves each input's staging buffer holding its block. The sixth window is the
  output: its block i is stored only at j = 7 and written back there; at every other point the window is idle and its
  buffer is handed back as found. Between points the body carries one number, the accumulator, in a scratch buffer
  no window stages: after point t it holds the case's stores applied to what the point before left (to anything when
  j = 0, where the body resets it first). The invariant before a point is therefore: the buffers the region never
  touches at some contents, the accumulator at what the point before left, and the generator register at some
  state; before the first point nothing is known of the accumulator.
-/
import proofs.«131435_j72533407695362_1_alg».proof.Proof.Kernel.PairRuns
import Idealize.ShloMosaic.Lib.Pipeline.RegionsLoop
import Idealize.ShloMosaic.Lib.Pipeline.FrameSuffix

set_option maxRecDepth 16384

noncomputable section

namespace Cert.Kernel.Pairs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core
variable (V : (c : Dev nD) → (b : Ref sig .tc) → Buf (Elt F) ((c : Thread nD τ).loc b))

/-! ## The windows' blocks -/

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before_in_of0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's staging buffer holds its block at every point, fetched there or not. -/
theorem before_in_of1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's staging buffer holds its block at every point, fetched there or not. -/
theorem before_in_of2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's staging buffer holds its block at every point, fetched there or not. -/
theorem before_in_of3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's staging buffer holds its block at every point, fetched there or not. -/
theorem before_in_of4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## Where the windows are idle -/

theorem live_in0 : ∀ t : Fin cfg1.N, cfg1.idle 0 (grid1.coords t) = false := fun _ => rfl
theorem live_in1 : ∀ t : Fin cfg1.N, cfg1.idle 1 (grid1.coords t) = false := fun _ => rfl
theorem live_in2 : ∀ t : Fin cfg1.N, cfg1.idle 2 (grid1.coords t) = false := fun _ => rfl
theorem live_in3 : ∀ t : Fin cfg1.N, cfg1.idle 3 (grid1.coords t) = false := fun _ => rfl
theorem live_in4 : ∀ t : Fin cfg1.N, cfg1.idle 4 (grid1.coords t) = false := fun _ => rfl
/-- Away from j = 7 the output window is idle, and its block is not written back; -/
theorem idle_out : ∀ t : Fin cfg1.N, ¬isLast (grid1.coords t) → cfg1.idle 5 (grid1.coords t) = true := by decide +kernel
theorem noFlush_out : ∀ t : Fin cfg1.N, ¬isLast (grid1.coords t) → (cfg1.win 5).flush t = false := by decide +kernel
/-- at j = 7 it is live. -/
theorem live_out : ∀ t : Fin cfg1.N, isLast (grid1.coords t) → cfg1.idle 5 (grid1.coords t) = false := by decide +kernel

/-! ## The staging buffers at a point, the accumulator's buffer -/

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x8x128 .f32 := win1_5.stage (cfg1.slots t 5)
abbrev hs5 (t : Fin cfg1.N) : (ms5 t).IsWhole := hstage1_5 ((cfg1.slots t 5).cast nbuf1_5)
/-- The accumulator's buffer, and the views through which the written buffers' contents are stated. -/
abbrev scM : Memref sig .tc .vmem S1x1 .f32 := Memref.whole cc1_scratch0
abbrev VS : View sig .tc .vmem S1x1 .f32 := scM.view
abbrev VO : View sig .tc .vmem S1x8x128 .f32 := (Memref.whole cc1_stg5_0 : Memref sig .tc .vmem S1x8x128 .f32).view

/-! ## What each case leaves, at a point -/

/-- j = 0 at point t: the accumulator after the body. -/
def accFirstAt (c : Dev nD) (t : Fin cfg1.N) (h0 : t.val % 8 = 0) : Vec F S1x1 .f32 :=
  VS.read (Elt F) (VS.writes (Elt F) VS.junk (runFirst c (grid1.coords t) (ms0 t) (hs0 t) (ms1 t) (hs1 t) (ms2 t) (hs2 t) (ms3 t) (hs3 t) (ms4 t) (hs4 t) (ms5 t) (hs5 t) scM (Memref.isWhole_whole _) ((isFirst_iff t).mpr h0) (fun h => by have := (isLast_iff t).mp h; omega) (blk V c 0 t) (blk V c 1 t) (blk V c 2 t) (blk V c 3 t) (blk V c 4 t)).1)
theorem coverFirstAt (c : Dev nD) (t : Fin cfg1.N) (h0 : t.val % 8 = 0) (y : S1x1.Idx) :
    ∃ pc ∈ (runFirst c (grid1.coords t) (ms0 t) (hs0 t) (ms1 t) (hs1 t) (ms2 t) (hs2 t) (ms3 t) (hs3 t) (ms4 t) (hs4 t) (ms5 t) (hs5 t) scM (Memref.isWhole_whole _) ((isFirst_iff t).mpr h0) (fun h => by have := (isLast_iff t).mp h; omega) (blk V c 0 t) (blk V c 1 t) (blk V c 2 t) (blk V c 3 t) (blk V c 4 t)).1, y ∈ pc.1.set :=
  View.cover_of_tiledL _ S1x1.size (by sl_kernel_rfl) y

/-- 0 < j < 7 at point t: the accumulator after the body, from what it held. -/
def accMidAt (c : Dev nD) (t : Fin cfg1.N) (h0 : ¬t.val % 8 = 0) (h7 : ¬t.val % 8 = 7) (xs : Vec F S1x1 .f32) : Vec F S1x1 .f32 :=
  VS.read (Elt F) (VS.writes (Elt F) VS.junk (runMid c (grid1.coords t) (ms0 t) (hs0 t) (ms1 t) (hs1 t) (ms2 t) (hs2 t) (ms3 t) (hs3 t) (ms4 t) (hs4 t) (ms5 t) (hs5 t) scM (Memref.isWhole_whole _) (fun h => h0 ((isFirst_iff t).mp h)) (fun h => h7 ((isLast_iff t).mp h)) (blk V c 0 t) (blk V c 1 t) (blk V c 2 t) (blk V c 3 t) (blk V c 4 t) xs).1)
theorem coverMidAt (c : Dev nD) (t : Fin cfg1.N) (h0 : ¬t.val % 8 = 0) (h7 : ¬t.val % 8 = 7) (xs : Vec F S1x1 .f32) (y : S1x1.Idx) :
    ∃ pc ∈ (runMid c (grid1.coords t) (ms0 t) (hs0 t) (ms1 t) (hs1 t) (ms2 t) (hs2 t) (ms3 t) (hs3 t) (ms4 t) (hs4 t) (ms5 t) (hs5 t) scM (Memref.isWhole_whole _) (fun h => h0 ((isFirst_iff t).mp h)) (fun h => h7 ((isLast_iff t).mp h)) (blk V c 0 t) (blk V c 1 t) (blk V c 2 t) (blk V c 3 t) (blk V c 4 t) xs).1, y ∈ pc.1.set :=
  View.cover_of_tiledL _ S1x1.size (by sl_kernel_rfl) y

/-- j = 7 at point t: the accumulator and the output block after the body. -/
def accLastAt (c : Dev nD) (t : Fin cfg1.N) (h0 : ¬t.val % 8 = 0) (h7 : t.val % 8 = 7) (xs : Vec F S1x1 .f32) : Vec F S1x1 .f32 :=
  VS.read (Elt F) (VS.writes (Elt F) VS.junk (runLast c (grid1.coords t) (ms0 t) (hs0 t) (ms1 t) (hs1 t) (ms2 t) (hs2 t) (ms3 t) (hs3 t) (ms4 t) (hs4 t) (ms5 t) (hs5 t) scM (Memref.isWhole_whole _) (fun h => h0 ((isFirst_iff t).mp h)) ((isLast_iff t).mpr h7) (blk V c 0 t) (blk V c 1 t) (blk V c 2 t) (blk V c 3 t) (blk V c 4 t) xs).1.2)
def outLastAt (c : Dev nD) (t : Fin cfg1.N) (h0 : ¬t.val % 8 = 0) (h7 : t.val % 8 = 7) (xs : Vec F S1x1 .f32) : Vec F S1x8x128 .f32 :=
  VO.read (Elt F) (VO.writes (Elt F) VO.junk (runLast c (grid1.coords t) (ms0 t) (hs0 t) (ms1 t) (hs1 t) (ms2 t) (hs2 t) (ms3 t) (hs3 t) (ms4 t) (hs4 t) (ms5 t) (hs5 t) scM (Memref.isWhole_whole _) (fun h => h0 ((isFirst_iff t).mp h)) ((isLast_iff t).mpr h7) (blk V c 0 t) (blk V c 1 t) (blk V c 2 t) (blk V c 3 t) (blk V c 4 t) xs).1.1)
theorem coverLastAccAt (c : Dev nD) (t : Fin cfg1.N) (h0 : ¬t.val % 8 = 0) (h7 : t.val % 8 = 7) (xs : Vec F S1x1 .f32) (y : S1x1.Idx) :
    ∃ pc ∈ (runLast c (grid1.coords t) (ms0 t) (hs0 t) (ms1 t) (hs1 t) (ms2 t) (hs2 t) (ms3 t) (hs3 t) (ms4 t) (hs4 t) (ms5 t) (hs5 t) scM (Memref.isWhole_whole _) (fun h => h0 ((isFirst_iff t).mp h)) ((isLast_iff t).mpr h7) (blk V c 0 t) (blk V c 1 t) (blk V c 2 t) (blk V c 3 t) (blk V c 4 t) xs).1.2, y ∈ pc.1.set :=
  View.cover_of_tiledL _ S1x1.size (by sl_kernel_rfl) y
theorem coverLastOutAt (c : Dev nD) (t : Fin cfg1.N) (h0 : ¬t.val % 8 = 0) (h7 : t.val % 8 = 7) (xs : Vec F S1x1 .f32) (y : S1x8x128.Idx) :
    ∃ pc ∈ (runLast c (grid1.coords t) (ms0 t) (hs0 t) (ms1 t) (hs1 t) (ms2 t) (hs2 t) (ms3 t) (hs3 t) (ms4 t) (hs4 t) (ms5 t) (hs5 t) scM (Memref.isWhole_whole _) (fun h => h0 ((isFirst_iff t).mp h)) ((isLast_iff t).mpr h7) (blk V c 0 t) (blk V c 1 t) (blk V c 2 t) (blk V c 3 t) (blk V c 4 t) xs).1.1, y ∈ pc.1.set :=
  View.cover_of_tiledL _ S1x8x128.size (by sl_kernel_rfl) y

/-! ## The accumulator point by point -/

/-- What the accumulator holds after the body at position n. -/
def accAt (c : Dev nD) : (n : ℕ) → n < cfg1.N → Vec F S1x1 .f32
  | 0, hn => accFirstAt V c ⟨0, hn⟩ (Nat.zero_mod _)
  | n + 1, hn =>
    if h0 : (n + 1) % 8 = 0 then accFirstAt V c ⟨n + 1, hn⟩ h0
    else if h7 : (n + 1) % 8 = 7 then accLastAt V c ⟨n + 1, hn⟩ h0 h7 (accAt c n (Nat.lt_of_succ_lt hn))
    else accMidAt V c ⟨n + 1, hn⟩ h0 h7 (accAt c n (Nat.lt_of_succ_lt hn))

theorem accAt_first (c : Dev nD) (t : Fin cfg1.N) (h0 : t.val % 8 = 0) : accAt V c t.val t.isLt = accFirstAt V c t h0 := by
  obtain ⟨n, hn⟩ := t
  cases n with
  | zero => exact rfl
  | succ n => exact (dif_pos h0).trans rfl
theorem accAt_mid (c : Dev nD) (t : Fin cfg1.N) (h0 : ¬t.val % 8 = 0) (h7 : ¬t.val % 8 = 7) :
    accAt V c t.val t.isLt = accMidAt V c t h0 h7 (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h7).trans rfl)
theorem accAt_last (c : Dev nD) (t : Fin cfg1.N) (h0 : ¬t.val % 8 = 0) (h7 : t.val % 8 = 7) :
    accAt V c t.val t.isLt = accLastAt V c t h0 h7 (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h7).trans rfl)

/-- What the output's staging buffer holds after the body at point t: the stored block at j = 7 (elsewhere the window
    is idle and this value is never read). -/
def outAt (c : Dev nD) (t : Fin cfg1.N) : Vec F S1x8x128 .f32 :=
  if h7 : t.val % 8 = 7 then
    outLastAt V c t (by omega) h7 (accAt V c (t.val - 1) (Nat.lt_of_le_of_lt (Nat.sub_le _ _) t.isLt))
  else VO.read (Elt F) VO.junk

/-! ## The invariant -/

/-- The class's invariant, the accumulator's buffer as a memref owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM fullShare d)) ∗ (∃ r, prngReg c r)) := by
  unfold Pipeline.ΦA; rw [scopedRest1_eq]; simp only [scM, owns_whole]; try rfl

/-- Before position n: at 0 the class's invariant; afterwards the untouched buffers, the accumulator at what the point
    before left, the generator register. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM fullShare (accAt V c n hn)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM fullShare (accAt V c (n - 1) (by omega))) ∗ (∃ r, prngReg c r)) := by
  cases n with
  | zero => exact absurd rfl hz
  | succ n => rfl

/-! ## The proof data -/

/-- The region's proof data on core c. The two windows on the one normalized matrix hold half of it each. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outAt V c t
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_in0 (c : Dev nD) (t : Fin cfg1.N) : (dat V c).after 0 t = blk V c 0 t := by dsimp only [dat]
theorem after_in1 (c : Dev nD) (t : Fin cfg1.N) : (dat V c).after 1 t = blk V c 1 t := by dsimp only [dat]
theorem after_in2 (c : Dev nD) (t : Fin cfg1.N) : (dat V c).after 2 t = blk V c 2 t := by dsimp only [dat]
theorem after_in3 (c : Dev nD) (t : Fin cfg1.N) : (dat V c).after 3 t = blk V c 3 t := by dsimp only [dat]
theorem after_in4 (c : Dev nD) (t : Fin cfg1.N) : (dat V c).after 4 t = blk V c 4 t := by dsimp only [dat]
theorem after_out (c : Dev nD) (t : Fin cfg1.N) : (dat V c).after 5 t = outAt V c t := by dsimp only [dat]
theorem before_in0 (c : Dev nD) (t : Fin cfg1.N) (d) : (dat V c).before 0 t d = blk V c 0 t :=
  before_in_of0 V (dat V c) (A_eq V c 0) (after_in0 V c) t d
theorem before_in1 (c : Dev nD) (t : Fin cfg1.N) (d) : (dat V c).before 1 t d = blk V c 1 t :=
  before_in_of1 V (dat V c) (A_eq V c 1) (after_in1 V c) t d
theorem before_in2 (c : Dev nD) (t : Fin cfg1.N) (d) : (dat V c).before 2 t d = blk V c 2 t :=
  before_in_of2 V (dat V c) (A_eq V c 2) (after_in2 V c) t d
theorem before_in3 (c : Dev nD) (t : Fin cfg1.N) (d) : (dat V c).before 3 t d = blk V c 3 t :=
  before_in_of3 V (dat V c) (A_eq V c 3) (after_in3 V c) t d
theorem before_in4 (c : Dev nD) (t : Fin cfg1.N) (d) : (dat V c).before 4 t d = blk V c 4 t :=
  before_in_of4 V (dat V c) (A_eq V c 4) (after_in4 V c) t d

/-! ## The body obligation -/

/-- What the body is called with at point t, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' buffers hold their blocks; the point's residue modulo 8 says which case it is in;
    the invariant hands the body the accumulator at what the point before left (at anything before the first point)
    and takes it back at this point's contents; the untouched buffers and the generator register pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (ms0 t) fullShare ((dat V c).after 0 t) from by
    unfold Dat.leavesExact; rw [live_in0 t], after_in0]
  rw [show (dat V c).leavesExact 1 t = owns (c : Thread nD τ) (ms1 t) fullShare ((dat V c).after 1 t) from by
    unfold Dat.leavesExact; rw [live_in1 t], after_in1]
  rw [show (dat V c).leavesExact 2 t = owns (c : Thread nD τ) (ms2 t) fullShare ((dat V c).after 2 t) from by
    unfold Dat.leavesExact; rw [live_in2 t], after_in2]
  rw [show (dat V c).leavesExact 3 t = owns (c : Thread nD τ) (ms3 t) fullShare ((dat V c).after 3 t) from by
    unfold Dat.leavesExact; rw [live_in3 t], after_in3]
  rw [show (dat V c).leavesExact 4 t = owns (c : Thread nD τ) (ms4 t) fullShare ((dat V c).after 4 t) from by
    unfold Dat.leavesExact; rw [live_in4 t], after_in4]
  by_cases h0 : t.val % 8 = 0
  · have h7 : ¬t.val % 8 = 7 := by omega
    rw [Dat.leavesExact_idle (dat V c) 5 t (idle_out t (fun h => h7 ((isLast_iff t).mp h))) (noFlush_out t (fun h => h7 ((isLast_iff t).mp h)))]
    rw [accAt_first V c t h0]
    unfold accFirstAt
    by_cases hz : t.val = 0
    · rw [PhiS_castSucc V c t, PhiS_zero V c _ _ hz, PhiA_eq]
      iintro ⟨⟨⟨HA, HB, HC, HD, HS⟩, Hg⟩, Ho, ⟨%d0, H0⟩, ⟨%d1, H1⟩, ⟨%d2, H2⟩, ⟨%d3, H3⟩, ⟨%d4, H4⟩, H5⟩
      iapply ((runFirst c (grid1.coords t) _ _ _ _ _ _ _ _ _ _ _ _ _ _ ((isFirst_iff t).mpr h0) (fun h => by have := (isLast_iff t).mp h; omega) (blk V c 0 t) (blk V c 1 t) (blk V c 2 t) (blk V c 3 t) (blk V c 4 t)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverFirstAt V c t h0)
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HA, HB, HC, HD, HS⟩, Hg⟩, Ho, ⟨%d0, H0⟩, ⟨%d1, H1⟩, ⟨%d2, H2⟩, ⟨%d3, H3⟩, ⟨%d4, H4⟩, H5⟩
      iapply ((runFirst c (grid1.coords t) _ _ _ _ _ _ _ _ _ _ _ _ _ _ ((isFirst_iff t).mpr h0) (fun h => by have := (isLast_iff t).mp h; omega) (blk V c 0 t) (blk V c 1 t) (blk V c 2 t) (blk V c 3 t) (blk V c 4 t)).2 Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverFirstAt V c t h0)
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    by_cases h7 : t.val % 8 = 7
    · rw [show (dat V c).leavesExact 5 t = owns (c : Thread nD τ) (ms5 t) fullShare ((dat V c).after 5 t) from by
        unfold Dat.leavesExact; rw [live_out t ((isLast_iff t).mpr h7)], after_out]
      rw [accAt_last V c t h0 h7]
      rw [show outAt V c t = outLastAt V c t h0 h7 (accAt V c (t.val - 1) (Nat.lt_of_le_of_lt (Nat.sub_le _ _) t.isLt)) from by
        unfold outAt; exact dif_pos h7]
      unfold accLastAt outLastAt
      rw [PhiS_castSucc V c t, PhiS_pos V c _ _ hz]
      iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ (fun h => h0 ((isFirst_iff t).mp h)) ((isLast_iff t).mpr h7) (blk V c 0 t) (blk V c 1 t) (blk V c 2 t) (blk V c 3 t) (blk V c 4 t) _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverLastAccAt V c t h0 h7 _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLastOutAt V c t h0 h7 _)
    · rw [Dat.leavesExact_idle (dat V c) 5 t (idle_out t (fun h => h7 ((isLast_iff t).mp h))) (noFlush_out t (fun h => h7 ((isLast_iff t).mp h)))]
      rw [accAt_mid V c t h0 h7]
      unfold accMidAt
      rw [PhiS_castSucc V c t, PhiS_pos V c _ _ hz]
      iintro ⟨⟨⟨HA, HB, HC, HD, HS⟩, Hg⟩, Ho, ⟨%d0, H0⟩, ⟨%d1, H1⟩, ⟨%d2, H2⟩, ⟨%d3, H3⟩, ⟨%d4, H4⟩, H5⟩
      iapply ((runMid c (grid1.coords t) _ _ _ _ _ _ _ _ _ _ _ _ _ _ (fun h => h0 ((isFirst_iff t).mp h)) (fun h => h7 ((isLast_iff t).mp h)) (blk V c 0 t) (blk V c 1 t) (blk V c 2 t) (blk V c 3 t) (blk V c 4 t) _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverMidAt V c t h0 h7 _)
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body obligation of the pipeline rule, at every point. -/
theorem body_obligation (c : Dev nD) : BodyObligation (dat (F := F) V c) (defs₀ (F := F)) Variants.none () Set.univ := fun t => by
  rw [bigSep_W1, bigSep_W1]
  exact sound_body V c t

/-- What the region is entered with is the invariant before the first point; -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- after any point but the first the invariant gives it back, the accumulator's contents forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

theorem Phi_last (c : Dev nD) : (dat V c).Φ (Fin.last cfg1.N) ⊢ Pipeline.ΦA spec1 c :=
  Phi_out V c _ (by rw [Fin.val_last]; have : cfg1.N = 64 := N_1; omega)

end Cert.Kernel.Pairs

end
-- ==== Proof.Kernel.Whole.lean ====
/-
  The whole program's run: @main as four segments — the host operations before the kernels, the row normalization, the
  pairwise block sums, the host operations after — each entered from what the one before left.

  Between segments a core holds every unscoped buffer at known contents (a valuation), the generator register at some
  state, and owes nothing. A host stretch moves the valuation by its operations. A kernel region takes its windows'
  arrays out of the held buffers, runs its pipeline, and puts them back with each output array at what the write-backs
  left; everything else is untouched. The run's conclusion reads every unscoped buffer off the last valuation.
-/
import proofs.«131435_j72533407695362_1_alg».proof.Proof.Kernel.Rows
import proofs.«131435_j72533407695362_1_alg».proof.Proof.Kernel.PairData
set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The second region's arrays among a core's unscoped buffers

Two of its windows read one array, so the library's lemmas for windows on distinct arrays do not apply: the buffers
behind the arrays are listed, and the normalized matrix is split between its two windows at entry and joined at exit. -/

/-- The five buffers behind the six windows' arrays. -/
theorem arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v24) ↦{fullShare} W main_v24) ∗ (((c : Thread nD τ).loc main_v21) ↦{fullShare} W main_v21)
          ∗ (((c : Thread nD τ).loc main_v22) ↦{fullShare} W main_v22) ∗ (((c : Thread nD τ).loc main_v23) ↦{fullShare} W main_v23)
          ∗ (((c : Thread nD τ).loc main_v25) ↦{fullShare} W main_v25)) := by
  unfold Pipeline.arrBufs
  exact bigSep_eq_bigSepL_of_eq [main_v24, main_v21, main_v22, main_v23, main_v25] (by decide) (by decide) _

theorem share0 (c : Dev nD) : (Pairs.dat V c).share 0 = fullShare.left := by
  unfold Dat.share; rw [if_neg (by decide)]; dsimp only [Pairs.dat]
theorem share1 (c : Dev nD) : (Pairs.dat V c).share 1 = fullShare.right := by
  unfold Dat.share; rw [if_neg (by decide)]; dsimp only [Pairs.dat]
theorem share2 (c : Dev nD) : (Pairs.dat V c).share 2 = fullShare := by
  unfold Dat.share; rw [if_neg (by decide)]; dsimp only [Pairs.dat]
theorem share3 (c : Dev nD) : (Pairs.dat V c).share 3 = fullShare := by
  unfold Dat.share; rw [if_neg (by decide)]; dsimp only [Pairs.dat]
theorem share4 (c : Dev nD) : (Pairs.dat V c).share 4 = fullShare := by
  unfold Dat.share; rw [if_neg (by decide)]; dsimp only [Pairs.dat]
theorem share5 (c : Dev nD) : (Pairs.dat V c).share 5 = fullShare := by
  unfold Dat.share; rw [if_pos (by decide)]

/-- Every window's array is a whole buffer: the arrays are plain points-tos at the windows' shares. -/
theorem arrays_univ (c : Dev nD) (G : (w : Fin cfg1.W) → Buf (Elt F) ((cfg1.win w).arr.view.loc (c : Thread nD τ))) :
    ((Pairs.dat V c).arrays G : sProp 𝕄)
      = bigSep Finset.univ fun w => ((((c : Thread nD τ).loc (Pipeline.arrRef spec1 w)) ↦{(Pairs.dat V c).share w} G w : sProp 𝕄)) := by
  unfold Dat.arrays
  exact bigSep_congr fun w _ => by rw [(arr_whole1 w).set_eq_univ]

set_option maxHeartbeats 1600000 in
/-- The six windows' arrays, one by one: the two windows on the normalized matrix hold its two halves. -/
theorem arrays_eq (c : Dev nD) (G : (w : Fin cfg1.W) → Buf (Elt F) ((cfg1.win w).arr.view.loc (c : Thread nD τ))) :
    ((Pairs.dat V c).arrays G : sProp 𝕄)
      = iprop((((c : Thread nD τ).loc main_v24) ↦{fullShare.left} G 0) ∗ (((c : Thread nD τ).loc main_v24) ↦{fullShare.right} G 1)
          ∗ (((c : Thread nD τ).loc main_v21) ↦{fullShare} G 2) ∗ (((c : Thread nD τ).loc main_v22) ↦{fullShare} G 3)
          ∗ (((c : Thread nD τ).loc main_v23) ↦{fullShare} G 4) ∗ (((c : Thread nD τ).loc main_v25) ↦{fullShare} G 5)) := by
  rw [arrays_univ, bigSep_W1]
  simp only [share0, share1, share2, share3, share4, share5]

/-- The buffers behind the arrays, each whole, make the arrays at the windows' shares. -/
theorem split (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (Pairs.dat V c).arrays G := by
  rw [arrBufs_eq, arrays_eq, hG 0, hG 1, hG 2, hG 3, hG 4, hG 5]
  have hs : ((((c : Thread nD τ).loc main_v24) ↦{fullShare} W main_v24 : sProp 𝕄))
      ⊢ iprop((((c : Thread nD τ).loc main_v24) ↦{fullShare.left} W main_v24) ∗ (((c : Thread nD τ).loc main_v24) ↦{fullShare.right} W main_v24)) :=
    (pointsTo_share (PosShare.mem_left_op_right fullShare)).1
  iintro ⟨H24, H21, H22, H23, H25⟩
  ihave H := hs $$ H24
  icases H with ⟨Hl, Hr⟩
  isplitl [Hl]; · iexact Hl
  isplitl [Hr]; · iexact Hr
  isplitl [H21]; · iexact H21
  isplitl [H22]; · iexact H22
  isplitl [H23]; · iexact H23
  iexact H25

/-- and back. -/
theorem join (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    ((Pairs.dat V c).arrays G : sProp 𝕄) ⊢ Pipeline.arrBufs (Ix := Unit) (Name := ℕ) (U := UR sig nD τ) (Lvl := ℕ) spec1 c W := by
  rw [arrBufs_eq, arrays_eq, hG 0, hG 1, hG 2, hG 3, hG 4, hG 5]
  have hj : iprop((((c : Thread nD τ).loc main_v24) ↦{fullShare.left} W main_v24) ∗ (((c : Thread nD τ).loc main_v24) ↦{fullShare.right} W main_v24))
      ⊢ ((((c : Thread nD τ).loc main_v24) ↦{fullShare} W main_v24 : sProp 𝕄)) :=
    (pointsTo_share (PosShare.mem_left_op_right fullShare)).2
  iintro ⟨Hl, Hr, H21, H22, H23, H25⟩
  isplitl [Hl Hr]
  · iapply hj
    isplitl [Hl]; · iexact Hl
    iexact Hr
  isplitl [H21]; · iexact H21
  isplitl [H22]; · iexact H22
  isplitl [H23]; · iexact H23
  iexact H25

/-- ENTRY: a core's unscoped buffers are the region's arrays at their entry contents and the rest. -/
theorem entry (c : Dev nD) :
    (unscopedBufs c (V c) : sProp 𝕄) ⊢ iprop((Pairs.dat V c).arrays (fun w => (Pairs.dat V c).arrAt w 0)
      ∗ Pipeline.unscopedRest (Ix := Unit) (Name := ℕ) (U := UR sig nD τ) (Lvl := ℕ) spec1 c (V c)) := by
  rw [Pipeline.unscopedBufs_split₀ cfgs 1 winFacts₀1.arr_unscoped c (V c)]
  exact sep_mono (split V c (V c) _ fun w => by rw [show (Pairs.dat V c).arrAt w 0 = (Pairs.dat V c).A w from rfl, Pairs.A_eq]) .rfl

/-- EXIT: the arrays at G and the rest are the unscoped buffers at any contents that have the arrays at G and agree with
    the entry contents elsewhere. -/
theorem exit (c : Dev nD) (W' : (b : Ref sig .tc) → Buf (Elt F) ((c : Thread nD τ).loc b))
    (G : (w : Fin cfg1.W) → Buf (Elt F) ((cfg1.win w).arr.view.loc (c : Thread nD τ))) (hG : ∀ w, G w = W' (Pipeline.arrRef spec1 w))
    (hrest : ∀ b, b ∉ Finset.univ.image (Pipeline.arrRef spec1) → W' b = V c b) :
    iprop((Pairs.dat V c).arrays G ∗ Pipeline.unscopedRest (Ix := Unit) (Name := ℕ) (U := UR sig nD τ) (Lvl := ℕ) spec1 c (V c))
      ⊢ (unscopedBufs c W' : sProp 𝕄) := by
  rw [Pipeline.unscopedBufs_split₀ cfgs 1 winFacts₀1.arr_unscoped c W']
  refine sep_mono (join V c W' G hG) (Entails.of_eq ?_)
  unfold Pipeline.unscopedRest
  exact bigSep_congr fun b hb => by rw [hrest b (Finset.mem_sdiff.mp hb).2]

/-! ## The buffer contents at each boundary of @main -/

variable (m : (ℓ : Loc nD τ sig) → Buf (Elt F) ℓ) (ρ : Dev nD → PrngReg)

/-- Core c's buffers at launch; -/
abbrev W0 : Dev nD → Valuation τ sig (Elt F) := fun c b => (s₀ m ρ).mem ((c : Dev nD), b)
/-- after the host operations before the first region (the first region's entry); -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- at the first region's exit, which is the second region's entry: the normalized matrix at what the write-backs leave,
    every other buffer as entered; -/
def W2 (c : Dev nD) : Valuation τ sig (Elt F) :=
  Pipeline.withArrays spec0 c (W1 m ρ c) fun w => (Rows.dat (V1 m ρ) c).arrAt w cfg0.N
theorem W2_arr (c : Dev nD) (w : Fin cfg0.W) :
    W2 m ρ c (Proc.devRef .tc (Pipeline.arrRef spec0 w)) = (Rows.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Rows.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- at the second region's exit: the block sums' array at what the write-backs leave, every other buffer as entered; -/
def W3 (c : Dev nD) : Valuation τ sig (Elt F) :=
  Function.update (W2 m ρ c) (Proc.devRef .tc main_v25) ((Pairs.dat (V2 m ρ) c).arrAt 5 cfg1.N)
abbrev V3 : (c : Dev nD) → (b : Ref sig .tc) → Buf (Elt F) ((c : Thread nD τ).loc b) := fun c b => W3 m ρ c b
theorem W3_out (c : Dev nD) : W3 m ρ c (Proc.devRef .tc main_v25) = (Pairs.dat (V2 m ρ) c).arrAt 5 cfg1.N := by
  unfold W3; exact Function.update_self _ _ _
theorem W3_of_ne (c : Dev nD) (b : Ref sig .tc) (hb : b ≠ main_v25) : W3 m ρ c (Proc.devRef .tc b) = W2 m ρ c (Proc.devRef .tc b) := by
  unfold W3; exact Function.update_of_ne (StableHlo.devRef_ne_of_ne hb) _ _
/-- after the host operations that follow. -/
abbrev W4 : Dev nD → Valuation τ sig (Elt F) := fun c => StableHlo.after hostOps2 (W3 m ρ c)

/-- At its exit each of the second region's arrays holds what the valuation says: an input as entered, the output as
    written back. -/
theorem hF1 (c : Dev nD) : ∀ w : Fin cfg1.W, (Pairs.dat (V2 m ρ) c).arrAt w cfg1.N = V3 m ρ c (Pipeline.arrRef spec1 w)
  | ⟨0, _⟩ => (((Pairs.dat (V2 m ρ) c).arrAt_in 0 rfl _).trans (Pairs.A_eq (V2 m ρ) c 0)).trans (W3_of_ne m ρ c main_v24 (by decide)).symm
  | ⟨1, _⟩ => (((Pairs.dat (V2 m ρ) c).arrAt_in 1 rfl _).trans (Pairs.A_eq (V2 m ρ) c 1)).trans (W3_of_ne m ρ c main_v24 (by decide)).symm
  | ⟨2, _⟩ => (((Pairs.dat (V2 m ρ) c).arrAt_in 2 rfl _).trans (Pairs.A_eq (V2 m ρ) c 2)).trans (W3_of_ne m ρ c main_v21 (by decide)).symm
  | ⟨3, _⟩ => (((Pairs.dat (V2 m ρ) c).arrAt_in 3 rfl _).trans (Pairs.A_eq (V2 m ρ) c 3)).trans (W3_of_ne m ρ c main_v22 (by decide)).symm
  | ⟨4, _⟩ => (((Pairs.dat (V2 m ρ) c).arrAt_in 4 rfl _).trans (Pairs.A_eq (V2 m ρ) c 4)).trans (W3_of_ne m ρ c main_v23 (by decide)).symm
  | ⟨5, _⟩ => (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨5, Finset.mem_univ _, e.symm⟩)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => Rows.dat (V1 m ρ) c
  | ⟨1, _⟩ => fun c => Pairs.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Rows.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W2, left at W3. Its arrays are split out of the unscoped
    buffers at entry, the normalized matrix between its two windows, and joined back at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Pairs.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V2 m ρ c)) :=
      entry (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Pairs.Phi_in (V2 m ρ) c)
    unfold Pipeline.ΦA
    iintro ⟨Hp, -, Hr⟩
    isplitl [Hr]; · iexact Hr
    iexact Hp
  hout c := by
    rw [Pipeline.ownSems0_none]
    refine (Pairs.Phi_last (V2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (unscopedBufs c (V3 m ρ c) : sProp 𝕄) :=
      exit (V2 m ρ) c (V3 m ρ c) ((Pairs.dat (V2 m ρ) c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub ops0_fresh (W0 m ρ)),
    .region (reg0 m ρ),
    .region (reg1 m ρ),
    .host (hseg hostOps2 hostOps2_sub ops2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and in
    every final state each unscoped buffer holds what the last boundary's valuation says. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

/-- No host operation writes the feature matrix, the first region only reads it, the second does not touch it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((Rows.dat (V1 m ρ) c).arrAt_in 0 rfl _).trans (Rows.A_eq (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- No host operation writes the labels and no region has them as a window's array. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The frame: every execution terminates, nothing faulting, with both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run m ρ)

end Cert.Kernel.Whole

end
-- ==== Proof.KernelIdeal.Rows.lean ====
/-
  The first kernel region: the rows of the feature matrix are normalized block by block.

  The region's grid has 8 points; at point t the body loads the block of rows 1024 t … 1024 t + 1023 of the
  feature matrix (window 0, read only) and stores the whole block of the output matrix (window 1) at one value
  computed from the loaded block. So the body is one load of the input block, one (unused) load of the output
  buffer and one store covering the output buffer; the input buffer is left as found. The proof data says that
  after the body at point t the input's staging buffer still holds the block and the output's holds the body's
  value of that block; the body owes nothing, and the only state it carries from point to point is what the
  region does not touch.
-/
import proofs.«131435_j72533407695362_1_alg».proof.Proof.Gen.KernelIdeal.Launch
import proofs.«131435_j72533407695362_1_alg».proof.Proof.Gen.KernelIdeal.Skeleton
import proofs.«131435_j72533407695362_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core
variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is the
    entry contents and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The one rectangle the body reads and writes: a whole 1024 x 1024 buffer. -/
abbrev whole : Rect S1024x1024 := Rect.unit (s := S1024x1024) ![0, 0] S1024x1024.size inb_S1024x1024_S1024x1024_0_0

/-- The output buffer after the body, from the input block: its one store. -/
def outBlock (x0 : Vec F S1024x1024 .f32) : Vec F S1024x1024 .bf16 :=
  View.canon [⟨whole, k0_pay1 (View.ld x0 whole)⟩]

/-- The store covers the buffer. -/
theorem cover (p0 : Vec F S1024x1024 .bf16) (y : S1024x1024.Idx) :
    ∃ pc ∈ ([⟨whole, p0⟩] : List (View.Piece (Elt F) S1024x1024 .bf16)), y ∈ pc.1.set :=
  View.cover_of_tiled [⟨whole, p0⟩] S1024x1024.size (by rfl) y

set_option maxHeartbeats 1000000 in
/-- The body on whole staging buffers, the input's at x0 and the output's at anything, runs to the continuation
    with the input's as it was and the output's at outBlock x0. -/
theorem sound_kernel (c : Dev nD) (E : Set ℕ) (i : grid0.Coords) (arg1 : Memref sig .tc .vmem S1024x1024 .f32) (harg1 : arg1.IsWhole)
    (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-- The region's proof data on core c. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => outBlock (blk V c 0 t)
  Φ _ := Pipeline.ΦA spec0 c
  q _ := fullShare
  owed _ := 0

theorem A_eq (c : Dev nD) (w : Fin cfg0.W) : (dat V c).A w = V c (Pipeline.arrRef spec0 w) := by
  dsimp only [dat]
theorem after_in (c : Dev nD) (t : Fin cfg0.N) : (dat V c).after 0 t = blk V c 0 t := by dsimp only [dat]
theorem after_out (c : Dev nD) (t : Fin cfg0.N) : (dat V c).after 1 t = outBlock (blk V c 0 t) := by dsimp only [dat]
theorem before_in (c : Dev nD) (t : Fin cfg0.N) (d) : (dat V c).before 0 t d = blk V c 0 t :=
  before_in_of V (dat V c) (A_eq V c 0) (after_in V c) t d

/-- What the body is called with at point t, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (sound_kernel c Set.univ _ _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline rule, at every point. -/
theorem body_obligation (c : Dev nD) : BodyObligation (dat (F := F) V c) (defs₀ (F := F)) Variants.none () Set.univ := fun t => by
  rw [bigSep_W0, bigSep_W0]
  exact sound_body V c t

end Cert.KernelIdeal.Rows

end
-- ==== Proof.KernelIdeal.PairRuns.lean ====
/-
  The second kernel region's body, run once per control case.

  The region's grid is 8 x 8: point (i, j) handles the pairs of row block i with row block j. The body first, when
  j = 0, resets a one-entry accumulator kept in a scratch buffer; it then loads the two row blocks, the two label
  blocks and the class sizes, computes the block's sum and adds it to the accumulator; and when j = 7 it fills the
  output block with the accumulator's entry. Three cases therefore cover the grid: j = 0 (reset and add), 0 < j < 7
  (add), j = 7 (add and store the output). In each case the body leaves the five input buffers as found; the
  accumulator ends with the case's stores written over what it held; the output buffer is written only when j = 7.
  Each run states what the written buffers end with as the list of the stores' pieces, last first.
-/
import proofs.«131435_j72533407695362_1_alg».proof.Proof.Gen.KernelIdeal.Launch
import proofs.«131435_j72533407695362_1_alg».proof.Proof.Gen.KernelIdeal.Skeleton
import proofs.«131435_j72533407695362_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pairs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, from the grid coordinates -/

/-- "j = 0", as the body computes it from the second grid coordinate. -/
abbrev isFirst (i : grid1.Coords) : Prop :=
  (Scalar.cmpi .ne (Scalar.extui (Scalar.cmpi .eq (BitVec.ofNat 32 (i 1).val) 0#32)) 0#32) = 1#1
/-- "j = 7", as the body computes it. -/
abbrev isLast (i : grid1.Coords) : Prop := k1_cond2 i = 1#1

/-- Point t = 8 i + j has j = 0 exactly when t is a multiple of 8. -/
theorem isFirst_iff : ∀ t : Fin cfg1.N, isFirst (grid1.coords t) ↔ t.val % 8 = 0 :=
  (by decide +kernel : ∀ t : Fin grid1.N, isFirst (grid1.coords t) ↔ t.val % 8 = 0)
/-- and j = 7 exactly when t is 7 modulo 8. -/
theorem isLast_iff : ∀ t : Fin cfg1.N, isLast (grid1.coords t) ↔ t.val % 8 = 7 :=
  (by decide +kernel : ∀ t : Fin grid1.N, isLast (grid1.coords t) ↔ t.val % 8 = 7)

/-! ## The body on any whole staging buffers -/

set_option maxHeartbeats 2000000 in
/-- Case j = 0: the accumulator, at anything, is reset and then receives the block's sum; the output buffer is not
    touched. -/
noncomputable def runFirst (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x8x128 .f32) (harg7 : arg7.IsWhole) (arg8 : Memref sig .tc .vmem S1x1 .f32) (harg8 : arg8.IsWhole) (hc1 : isFirst i) (hc2 : ¬isLast i)
    (x0 : Vec F S1024x1024 .bf16) (x1 : Vec F S1024x1024 .bf16) (x2 : Vec F S1024x1 .i32) (x3 : Vec F S1x1024 .i32) (x4 : Vec F S1024x1 .f32) :
    { L8 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L8)) -∗ K ⟨⟩))
          ⊢ wp frame (wpE (defs₀ (F := F)) Variants.none c none) E (cc1__pairwise_kernel i arg2 harg2 arg3 harg3 arg4 harg4 arg5 harg5 arg6 harg6 arg7 harg7 arg8 harg8) K } := by
  refine ⟨?_, fun E K => ?run⟩
  case run =>
    simp only [cc1__pairwise_kernel_eq_skeleton]; unfold cc1__pairwise_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H8

set_option maxHeartbeats 2000000 in
/-- Case 0 < j < 7: the accumulator, at xs, receives the block's sum; the output buffer is not touched. -/
noncomputable def runMid (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x8x128 .f32) (harg7 : arg7.IsWhole) (arg8 : Memref sig .tc .vmem S1x1 .f32) (harg8 : arg8.IsWhole) (hc1 : ¬isFirst i) (hc2 : ¬isLast i)
    (x0 : Vec F S1024x1024 .bf16) (x1 : Vec F S1024x1024 .bf16) (x2 : Vec F S1024x1 .i32) (x3 : Vec F S1x1024 .i32) (x4 : Vec F S1024x1 .f32) (xs : Vec F S1x1 .f32) :
    { L8 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg8.view.loc (c : Thread nD τ) ↦[arg8.view.set]{fullShare} arg8.view.writes (Elt F) f L8)) -∗ K ⟨⟩))
          ⊢ wp frame (wpE (defs₀ (F := F)) Variants.none c none) E (cc1__pairwise_kernel i arg2 harg2 arg3 harg3 arg4 harg4 arg5 harg5 arg6 harg6 arg7 harg7 arg8 harg8) K } := by
  refine ⟨?_, fun E K => ?run⟩
  case run =>
    simp only [cc1__pairwise_kernel_eq_skeleton]; unfold cc1__pairwise_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf8
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H8

set_option maxHeartbeats 2000000 in
/-- Case j = 7: the accumulator, at xs, receives the block's sum, and the output buffer, at anything, is filled. -/
noncomputable def runLast (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x8x128 .f32) (harg7 : arg7.IsWhole) (arg8 : Memref sig .tc .vmem S1x1 .f32) (harg8 : arg8.IsWhole) (hc1 : ¬isFirst i) (hc2 : isLast i)
    (x0 : Vec F S1024x1024 .bf16) (x1 : Vec F S1024x1024 .bf16) (x2 : Vec F S1024x1 .i32) (x3 : Vec F S1x1024 .i32) (x4 : Vec F S1024x1 .f32) (xs : Vec F S1x1 .f32) :
    { L : List (View.Piece (Elt F) S1x8x128 .f32) × List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2)) -∗ K ⟨⟩))
          ⊢ wp frame (wpE (defs₀ (F := F)) Variants.none c none) E (cc1__pairwise_kernel i arg2 harg2 arg3 harg3 arg4 harg4 arg5 harg5 arg6 harg6 arg7 harg7 arg8 harg8) K } := by
  refine ⟨(?_, ?_), fun E K => ?run⟩
  case run =>
    simp only [cc1__pairwise_kernel_eq_skeleton]; unfold cc1__pairwise_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf8
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; iexact H7
    iexists _; iexact H8

end Cert.KernelIdeal.Pairs

end
-- ==== Proof.KernelIdeal.PairData.lean ====
/-
  The second kernel region's proof data and body obligation.

  Point t = 8 i + j of the 8 x 8 grid works on row block i against row block j. Five windows are read only: the two
  row blocks of the normalized matrix (both windows on the one matrix), the labels as a column and as a row, and the
  class sizes as a column; the body leaves each input's staging buffer holding its block. The sixth window is the
  output: its block i is stored only at j = 7 and written back there; at every other point the window is idle and its
  buffer is handed back as found. Between points the body carries one number, the accumulator, in a scratch buffer
  no window stages: after point t it holds the case's stores applied to what the point before left (to anything when
  j = 0, where the body resets it first). The invariant before a point is therefore: the buffers the region never
  touches at some contents, the accumulator at what the point before left, and the generator register at some
  state; before the first point nothing is known of the accumulator.
-/
import proofs.«131435_j72533407695362_1_alg».proof.Proof.KernelIdeal.PairRuns
import Idealize.ShloMosaic.Lib.Pipeline.RegionsLoop
import Idealize.ShloMosaic.Lib.Pipeline.FrameSuffix

set_option maxRecDepth 16384

noncomputable section

namespace Cert.KernelIdeal.Pairs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered from, per core
variable (V : (c : Dev nD) → (b : Ref sig .tc) → Buf (Elt F) ((c : Thread nD τ).loc b))

/-! ## The windows' blocks -/

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before_in_of0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's staging buffer holds its block at every point, fetched there or not. -/
theorem before_in_of1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's staging buffer holds its block at every point, fetched there or not. -/
theorem before_in_of2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's staging buffer holds its block at every point, fetched there or not. -/
theorem before_in_of3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's staging buffer holds its block at every point, fetched there or not. -/
theorem before_in_of4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## Where the windows are idle -/

theorem live_in0 : ∀ t : Fin cfg1.N, cfg1.idle 0 (grid1.coords t) = false := fun _ => rfl
theorem live_in1 : ∀ t : Fin cfg1.N, cfg1.idle 1 (grid1.coords t) = false := fun _ => rfl
theorem live_in2 : ∀ t : Fin cfg1.N, cfg1.idle 2 (grid1.coords t) = false := fun _ => rfl
theorem live_in3 : ∀ t : Fin cfg1.N, cfg1.idle 3 (grid1.coords t) = false := fun _ => rfl
theorem live_in4 : ∀ t : Fin cfg1.N, cfg1.idle 4 (grid1.coords t) = false := fun _ => rfl
/-- Away from j = 7 the output window is idle, and its block is not written back; -/
theorem idle_out : ∀ t : Fin cfg1.N, ¬isLast (grid1.coords t) → cfg1.idle 5 (grid1.coords t) = true := by decide +kernel
theorem noFlush_out : ∀ t : Fin cfg1.N, ¬isLast (grid1.coords t) → (cfg1.win 5).flush t = false := by decide +kernel
/-- at j = 7 it is live. -/
theorem live_out : ∀ t : Fin cfg1.N, isLast (grid1.coords t) → cfg1.idle 5 (grid1.coords t) = false := by decide +kernel

/-! ## The staging buffers at a point, the accumulator's buffer -/

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x8x128 .f32 := win1_5.stage (cfg1.slots t 5)
abbrev hs5 (t : Fin cfg1.N) : (ms5 t).IsWhole := hstage1_5 ((cfg1.slots t 5).cast nbuf1_5)
/-- The accumulator's buffer, and the views through which the written buffers' contents are stated. -/
abbrev scM : Memref sig .tc .vmem S1x1 .f32 := Memref.whole cc1_scratch0
abbrev VS : View sig .tc .vmem S1x1 .f32 := scM.view
abbrev VO : View sig .tc .vmem S1x8x128 .f32 := (Memref.whole cc1_stg5_0 : Memref sig .tc .vmem S1x8x128 .f32).view

/-! ## What each case leaves, at a point -/

/-- j = 0 at point t: the accumulator after the body. -/
def accFirstAt (c : Dev nD) (t : Fin cfg1.N) (h0 : t.val % 8 = 0) : Vec F S1x1 .f32 :=
  VS.read (Elt F) (VS.writes (Elt F) VS.junk (runFirst c (grid1.coords t) (ms0 t) (hs0 t) (ms1 t) (hs1 t) (ms2 t) (hs2 t) (ms3 t) (hs3 t) (ms4 t) (hs4 t) (ms5 t) (hs5 t) scM (Memref.isWhole_whole _) ((isFirst_iff t).mpr h0) (fun h => by have := (isLast_iff t).mp h; omega) (blk V c 0 t) (blk V c 1 t) (blk V c 2 t) (blk V c 3 t) (blk V c 4 t)).1)
theorem coverFirstAt (c : Dev nD) (t : Fin cfg1.N) (h0 : t.val % 8 = 0) (y : S1x1.Idx) :
    ∃ pc ∈ (runFirst c (grid1.coords t) (ms0 t) (hs0 t) (ms1 t) (hs1 t) (ms2 t) (hs2 t) (ms3 t) (hs3 t) (ms4 t) (hs4 t) (ms5 t) (hs5 t) scM (Memref.isWhole_whole _) ((isFirst_iff t).mpr h0) (fun h => by have := (isLast_iff t).mp h; omega) (blk V c 0 t) (blk V c 1 t) (blk V c 2 t) (blk V c 3 t) (blk V c 4 t)).1, y ∈ pc.1.set :=
  View.cover_of_tiledL _ S1x1.size (by sl_kernel_rfl) y

/-- 0 < j < 7 at point t: the accumulator after the body, from what it held. -/
def accMidAt (c : Dev nD) (t : Fin cfg1.N) (h0 : ¬t.val % 8 = 0) (h7 : ¬t.val % 8 = 7) (xs : Vec F S1x1 .f32) : Vec F S1x1 .f32 :=
  VS.read (Elt F) (VS.writes (Elt F) VS.junk (runMid c (grid1.coords t) (ms0 t) (hs0 t) (ms1 t) (hs1 t) (ms2 t) (hs2 t) (ms3 t) (hs3 t) (ms4 t) (hs4 t) (ms5 t) (hs5 t) scM (Memref.isWhole_whole _) (fun h => h0 ((isFirst_iff t).mp h)) (fun h => h7 ((isLast_iff t).mp h)) (blk V c 0 t) (blk V c 1 t) (blk V c 2 t) (blk V c 3 t) (blk V c 4 t) xs).1)
theorem coverMidAt (c : Dev nD) (t : Fin cfg1.N) (h0 : ¬t.val % 8 = 0) (h7 : ¬t.val % 8 = 7) (xs : Vec F S1x1 .f32) (y : S1x1.Idx) :
    ∃ pc ∈ (runMid c (grid1.coords t) (ms0 t) (hs0 t) (ms1 t) (hs1 t) (ms2 t) (hs2 t) (ms3 t) (hs3 t) (ms4 t) (hs4 t) (ms5 t) (hs5 t) scM (Memref.isWhole_whole _) (fun h => h0 ((isFirst_iff t).mp h)) (fun h => h7 ((isLast_iff t).mp h)) (blk V c 0 t) (blk V c 1 t) (blk V c 2 t) (blk V c 3 t) (blk V c 4 t) xs).1, y ∈ pc.1.set :=
  View.cover_of_tiledL _ S1x1.size (by sl_kernel_rfl) y

/-- j = 7 at point t: the accumulator and the output block after the body. -/
def accLastAt (c : Dev nD) (t : Fin cfg1.N) (h0 : ¬t.val % 8 = 0) (h7 : t.val % 8 = 7) (xs : Vec F S1x1 .f32) : Vec F S1x1 .f32 :=
  VS.read (Elt F) (VS.writes (Elt F) VS.junk (runLast c (grid1.coords t) (ms0 t) (hs0 t) (ms1 t) (hs1 t) (ms2 t) (hs2 t) (ms3 t) (hs3 t) (ms4 t) (hs4 t) (ms5 t) (hs5 t) scM (Memref.isWhole_whole _) (fun h => h0 ((isFirst_iff t).mp h)) ((isLast_iff t).mpr h7) (blk V c 0 t) (blk V c 1 t) (blk V c 2 t) (blk V c 3 t) (blk V c 4 t) xs).1.2)
def outLastAt (c : Dev nD) (t : Fin cfg1.N) (h0 : ¬t.val % 8 = 0) (h7 : t.val % 8 = 7) (xs : Vec F S1x1 .f32) : Vec F S1x8x128 .f32 :=
  VO.read (Elt F) (VO.writes (Elt F) VO.junk (runLast c (grid1.coords t) (ms0 t) (hs0 t) (ms1 t) (hs1 t) (ms2 t) (hs2 t) (ms3 t) (hs3 t) (ms4 t) (hs4 t) (ms5 t) (hs5 t) scM (Memref.isWhole_whole _) (fun h => h0 ((isFirst_iff t).mp h)) ((isLast_iff t).mpr h7) (blk V c 0 t) (blk V c 1 t) (blk V c 2 t) (blk V c 3 t) (blk V c 4 t) xs).1.1)
theorem coverLastAccAt (c : Dev nD) (t : Fin cfg1.N) (h0 : ¬t.val % 8 = 0) (h7 : t.val % 8 = 7) (xs : Vec F S1x1 .f32) (y : S1x1.Idx) :
    ∃ pc ∈ (runLast c (grid1.coords t) (ms0 t) (hs0 t) (ms1 t) (hs1 t) (ms2 t) (hs2 t) (ms3 t) (hs3 t) (ms4 t) (hs4 t) (ms5 t) (hs5 t) scM (Memref.isWhole_whole _) (fun h => h0 ((isFirst_iff t).mp h)) ((isLast_iff t).mpr h7) (blk V c 0 t) (blk V c 1 t) (blk V c 2 t) (blk V c 3 t) (blk V c 4 t) xs).1.2, y ∈ pc.1.set :=
  View.cover_of_tiledL _ S1x1.size (by sl_kernel_rfl) y
theorem coverLastOutAt (c : Dev nD) (t : Fin cfg1.N) (h0 : ¬t.val % 8 = 0) (h7 : t.val % 8 = 7) (xs : Vec F S1x1 .f32) (y : S1x8x128.Idx) :
    ∃ pc ∈ (runLast c (grid1.coords t) (ms0 t) (hs0 t) (ms1 t) (hs1 t) (ms2 t) (hs2 t) (ms3 t) (hs3 t) (ms4 t) (hs4 t) (ms5 t) (hs5 t) scM (Memref.isWhole_whole _) (fun h => h0 ((isFirst_iff t).mp h)) ((isLast_iff t).mpr h7) (blk V c 0 t) (blk V c 1 t) (blk V c 2 t) (blk V c 3 t) (blk V c 4 t) xs).1.1, y ∈ pc.1.set :=
  View.cover_of_tiledL _ S1x8x128.size (by sl_kernel_rfl) y

/-! ## The accumulator point by point -/

/-- What the accumulator holds after the body at position n. -/
def accAt (c : Dev nD) : (n : ℕ) → n < cfg1.N → Vec F S1x1 .f32
  | 0, hn => accFirstAt V c ⟨0, hn⟩ (Nat.zero_mod _)
  | n + 1, hn =>
    if h0 : (n + 1) % 8 = 0 then accFirstAt V c ⟨n + 1, hn⟩ h0
    else if h7 : (n + 1) % 8 = 7 then accLastAt V c ⟨n + 1, hn⟩ h0 h7 (accAt c n (Nat.lt_of_succ_lt hn))
    else accMidAt V c ⟨n + 1, hn⟩ h0 h7 (accAt c n (Nat.lt_of_succ_lt hn))

theorem accAt_first (c : Dev nD) (t : Fin cfg1.N) (h0 : t.val % 8 = 0) : accAt V c t.val t.isLt = accFirstAt V c t h0 := by
  obtain ⟨n, hn⟩ := t
  cases n with
  | zero => exact rfl
  | succ n => exact (dif_pos h0).trans rfl
theorem accAt_mid (c : Dev nD) (t : Fin cfg1.N) (h0 : ¬t.val % 8 = 0) (h7 : ¬t.val % 8 = 7) :
    accAt V c t.val t.isLt = accMidAt V c t h0 h7 (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h7).trans rfl)
theorem accAt_last (c : Dev nD) (t : Fin cfg1.N) (h0 : ¬t.val % 8 = 0) (h7 : t.val % 8 = 7) :
    accAt V c t.val t.isLt = accLastAt V c t h0 h7 (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h7).trans rfl)

/-- What the output's staging buffer holds after the body at point t: the stored block at j = 7 (elsewhere the window
    is idle and this value is never read). -/
def outAt (c : Dev nD) (t : Fin cfg1.N) : Vec F S1x8x128 .f32 :=
  if h7 : t.val % 8 = 7 then
    outLastAt V c t (by omega) h7 (accAt V c (t.val - 1) (Nat.lt_of_le_of_lt (Nat.sub_le _ _) t.isLt))
  else VO.read (Elt F) VO.junk

/-! ## The invariant -/

/-- The class's invariant, the accumulator's buffer as a memref owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM fullShare d)) ∗ (∃ r, prngReg c r)) := by
  unfold Pipeline.ΦA; rw [scopedRest1_eq]; simp only [scM, owns_whole]; try rfl

/-- Before position n: at 0 the class's invariant; afterwards the untouched buffers, the accumulator at what the point
    before left, the generator register. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM fullShare (accAt V c n hn)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM fullShare (accAt V c (n - 1) (by omega))) ∗ (∃ r, prngReg c r)) := by
  cases n with
  | zero => exact absurd rfl hz
  | succ n => rfl

/-! ## The proof data -/

/-- The region's proof data on core c. The two windows on the one normalized matrix hold half of it each. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outAt V c t
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_in0 (c : Dev nD) (t : Fin cfg1.N) : (dat V c).after 0 t = blk V c 0 t := by dsimp only [dat]
theorem after_in1 (c : Dev nD) (t : Fin cfg1.N) : (dat V c).after 1 t = blk V c 1 t := by dsimp only [dat]
theorem after_in2 (c : Dev nD) (t : Fin cfg1.N) : (dat V c).after 2 t = blk V c 2 t := by dsimp only [dat]
theorem after_in3 (c : Dev nD) (t : Fin cfg1.N) : (dat V c).after 3 t = blk V c 3 t := by dsimp only [dat]
theorem after_in4 (c : Dev nD) (t : Fin cfg1.N) : (dat V c).after 4 t = blk V c 4 t := by dsimp only [dat]
theorem after_out (c : Dev nD) (t : Fin cfg1.N) : (dat V c).after 5 t = outAt V c t := by dsimp only [dat]
theorem before_in0 (c : Dev nD) (t : Fin cfg1.N) (d) : (dat V c).before 0 t d = blk V c 0 t :=
  before_in_of0 V (dat V c) (A_eq V c 0) (after_in0 V c) t d
theorem before_in1 (c : Dev nD) (t : Fin cfg1.N) (d) : (dat V c).before 1 t d = blk V c 1 t :=
  before_in_of1 V (dat V c) (A_eq V c 1) (after_in1 V c) t d
theorem before_in2 (c : Dev nD) (t : Fin cfg1.N) (d) : (dat V c).before 2 t d = blk V c 2 t :=
  before_in_of2 V (dat V c) (A_eq V c 2) (after_in2 V c) t d
theorem before_in3 (c : Dev nD) (t : Fin cfg1.N) (d) : (dat V c).before 3 t d = blk V c 3 t :=
  before_in_of3 V (dat V c) (A_eq V c 3) (after_in3 V c) t d
theorem before_in4 (c : Dev nD) (t : Fin cfg1.N) (d) : (dat V c).before 4 t d = blk V c 4 t :=
  before_in_of4 V (dat V c) (A_eq V c 4) (after_in4 V c) t d

/-! ## The body obligation -/

/-- What the body is called with at point t, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' buffers hold their blocks; the point's residue modulo 8 says which case it is in;
    the invariant hands the body the accumulator at what the point before left (at anything before the first point)
    and takes it back at this point's contents; the untouched buffers and the generator register pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (ms0 t) fullShare ((dat V c).after 0 t) from by
    unfold Dat.leavesExact; rw [live_in0 t], after_in0]
  rw [show (dat V c).leavesExact 1 t = owns (c : Thread nD τ) (ms1 t) fullShare ((dat V c).after 1 t) from by
    unfold Dat.leavesExact; rw [live_in1 t], after_in1]
  rw [show (dat V c).leavesExact 2 t = owns (c : Thread nD τ) (ms2 t) fullShare ((dat V c).after 2 t) from by
    unfold Dat.leavesExact; rw [live_in2 t], after_in2]
  rw [show (dat V c).leavesExact 3 t = owns (c : Thread nD τ) (ms3 t) fullShare ((dat V c).after 3 t) from by
    unfold Dat.leavesExact; rw [live_in3 t], after_in3]
  rw [show (dat V c).leavesExact 4 t = owns (c : Thread nD τ) (ms4 t) fullShare ((dat V c).after 4 t) from by
    unfold Dat.leavesExact; rw [live_in4 t], after_in4]
  by_cases h0 : t.val % 8 = 0
  · have h7 : ¬t.val % 8 = 7 := by omega
    rw [Dat.leavesExact_idle (dat V c) 5 t (idle_out t (fun h => h7 ((isLast_iff t).mp h))) (noFlush_out t (fun h => h7 ((isLast_iff t).mp h)))]
    rw [accAt_first V c t h0]
    unfold accFirstAt
    by_cases hz : t.val = 0
    · rw [PhiS_castSucc V c t, PhiS_zero V c _ _ hz, PhiA_eq]
      iintro ⟨⟨⟨HA, HB, HC, HD, HS⟩, Hg⟩, Ho, ⟨%d0, H0⟩, ⟨%d1, H1⟩, ⟨%d2, H2⟩, ⟨%d3, H3⟩, ⟨%d4, H4⟩, H5⟩
      iapply ((runFirst c (grid1.coords t) _ _ _ _ _ _ _ _ _ _ _ _ _ _ ((isFirst_iff t).mpr h0) (fun h => by have := (isLast_iff t).mp h; omega) (blk V c 0 t) (blk V c 1 t) (blk V c 2 t) (blk V c 3 t) (blk V c 4 t)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverFirstAt V c t h0)
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HA, HB, HC, HD, HS⟩, Hg⟩, Ho, ⟨%d0, H0⟩, ⟨%d1, H1⟩, ⟨%d2, H2⟩, ⟨%d3, H3⟩, ⟨%d4, H4⟩, H5⟩
      iapply ((runFirst c (grid1.coords t) _ _ _ _ _ _ _ _ _ _ _ _ _ _ ((isFirst_iff t).mpr h0) (fun h => by have := (isLast_iff t).mp h; omega) (blk V c 0 t) (blk V c 1 t) (blk V c 2 t) (blk V c 3 t) (blk V c 4 t)).2 Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverFirstAt V c t h0)
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    by_cases h7 : t.val % 8 = 7
    · rw [show (dat V c).leavesExact 5 t = owns (c : Thread nD τ) (ms5 t) fullShare ((dat V c).after 5 t) from by
        unfold Dat.leavesExact; rw [live_out t ((isLast_iff t).mpr h7)], after_out]
      rw [accAt_last V c t h0 h7]
      rw [show outAt V c t = outLastAt V c t h0 h7 (accAt V c (t.val - 1) (Nat.lt_of_le_of_lt (Nat.sub_le _ _) t.isLt)) from by
        unfold outAt; exact dif_pos h7]
      unfold accLastAt outLastAt
      rw [PhiS_castSucc V c t, PhiS_pos V c _ _ hz]
      iintro ⟨⟨⟨HA, HB, HC, HD, HS⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ (fun h => h0 ((isFirst_iff t).mp h)) ((isLast_iff t).mpr h7) (blk V c 0 t) (blk V c 1 t) (blk V c 2 t) (blk V c 3 t) (blk V c 4 t) _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverLastAccAt V c t h0 h7 _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLastOutAt V c t h0 h7 _)
    · rw [Dat.leavesExact_idle (dat V c) 5 t (idle_out t (fun h => h7 ((isLast_iff t).mp h))) (noFlush_out t (fun h => h7 ((isLast_iff t).mp h)))]
      rw [accAt_mid V c t h0 h7]
      unfold accMidAt
      rw [PhiS_castSucc V c t, PhiS_pos V c _ _ hz]
      iintro ⟨⟨⟨HA, HB, HC, HD, HS⟩, Hg⟩, Ho, ⟨%d0, H0⟩, ⟨%d1, H1⟩, ⟨%d2, H2⟩, ⟨%d3, H3⟩, ⟨%d4, H4⟩, H5⟩
      iapply ((runMid c (grid1.coords t) _ _ _ _ _ _ _ _ _ _ _ _ _ _ (fun h => h0 ((isFirst_iff t).mp h)) (fun h => h7 ((isLast_iff t).mp h)) (blk V c 0 t) (blk V c 1 t) (blk V c 2 t) (blk V c 3 t) (blk V c 4 t) _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HA HB HC HD HS Hg]
      · isplitl [HA HB HC HD HS]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverMidAt V c t h0 h7 _)
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body obligation of the pipeline rule, at every point. -/
theorem body_obligation (c : Dev nD) : BodyObligation (dat (F := F) V c) (defs₀ (F := F)) Variants.none () Set.univ := fun t => by
  rw [bigSep_W1, bigSep_W1]
  exact sound_body V c t

/-- What the region is entered with is the invariant before the first point; -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- after any point but the first the invariant gives it back, the accumulator's contents forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

theorem Phi_last (c : Dev nD) : (dat V c).Φ (Fin.last cfg1.N) ⊢ Pipeline.ΦA spec1 c :=
  Phi_out V c _ (by rw [Fin.val_last]; have : cfg1.N = 64 := N_1; omega)

end Cert.KernelIdeal.Pairs

end
-- ==== Proof.KernelIdeal.Whole.lean ====
/-
  The whole program's run: @main as four segments — the host operations before the kernels, the row normalization, the
  pairwise block sums, the host operations after — each entered from what the one before left.

  Between segments a core holds every unscoped buffer at known contents (a valuation), the generator register at some
  state, and owes nothing. A host stretch moves the valuation by its operations. A kernel region takes its windows'
  arrays out of the held buffers, runs its pipeline, and puts them back with each output array at what the write-backs
  left; everything else is untouched. The run's conclusion reads every unscoped buffer off the last valuation.
-/
import proofs.«131435_j72533407695362_1_alg».proof.Proof.KernelIdeal.Rows
import proofs.«131435_j72533407695362_1_alg».proof.Proof.KernelIdeal.PairData
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The second region's arrays among a core's unscoped buffers

Two of its windows read one array, so the library's lemmas for windows on distinct arrays do not apply: the buffers
behind the arrays are listed, and the normalized matrix is split between its two windows at entry and joined at exit. -/

/-- The five buffers behind the six windows' arrays. -/
theorem arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v24) ↦{fullShare} W main_v24) ∗ (((c : Thread nD τ).loc main_v21) ↦{fullShare} W main_v21)
          ∗ (((c : Thread nD τ).loc main_v22) ↦{fullShare} W main_v22) ∗ (((c : Thread nD τ).loc main_v23) ↦{fullShare} W main_v23)
          ∗ (((c : Thread nD τ).loc main_v25) ↦{fullShare} W main_v25)) := by
  unfold Pipeline.arrBufs
  exact bigSep_eq_bigSepL_of_eq [main_v24, main_v21, main_v22, main_v23, main_v25] (by decide) (by decide) _

theorem share0 (c : Dev nD) : (Pairs.dat V c).share 0 = fullShare.left := by
  unfold Dat.share; rw [if_neg (by decide)]; dsimp only [Pairs.dat]
theorem share1 (c : Dev nD) : (Pairs.dat V c).share 1 = fullShare.right := by
  unfold Dat.share; rw [if_neg (by decide)]; dsimp only [Pairs.dat]
theorem share2 (c : Dev nD) : (Pairs.dat V c).share 2 = fullShare := by
  unfold Dat.share; rw [if_neg (by decide)]; dsimp only [Pairs.dat]
theorem share3 (c : Dev nD) : (Pairs.dat V c).share 3 = fullShare := by
  unfold Dat.share; rw [if_neg (by decide)]; dsimp only [Pairs.dat]
theorem share4 (c : Dev nD) : (Pairs.dat V c).share 4 = fullShare := by
  unfold Dat.share; rw [if_neg (by decide)]; dsimp only [Pairs.dat]
theorem share5 (c : Dev nD) : (Pairs.dat V c).share 5 = fullShare := by
  unfold Dat.share; rw [if_pos (by decide)]

/-- Every window's array is a whole buffer: the arrays are plain points-tos at the windows' shares. -/
theorem arrays_univ (c : Dev nD) (G : (w : Fin cfg1.W) → Buf (Elt F) ((cfg1.win w).arr.view.loc (c : Thread nD τ))) :
    ((Pairs.dat V c).arrays G : sProp 𝕄)
      = bigSep Finset.univ fun w => ((((c : Thread nD τ).loc (Pipeline.arrRef spec1 w)) ↦{(Pairs.dat V c).share w} G w : sProp 𝕄)) := by
  unfold Dat.arrays
  exact bigSep_congr fun w _ => by rw [(arr_whole1 w).set_eq_univ]

set_option maxHeartbeats 1600000 in
/-- The six windows' arrays, one by one: the two windows on the normalized matrix hold its two halves. -/
theorem arrays_eq (c : Dev nD) (G : (w : Fin cfg1.W) → Buf (Elt F) ((cfg1.win w).arr.view.loc (c : Thread nD τ))) :
    ((Pairs.dat V c).arrays G : sProp 𝕄)
      = iprop((((c : Thread nD τ).loc main_v24) ↦{fullShare.left} G 0) ∗ (((c : Thread nD τ).loc main_v24) ↦{fullShare.right} G 1)
          ∗ (((c : Thread nD τ).loc main_v21) ↦{fullShare} G 2) ∗ (((c : Thread nD τ).loc main_v22) ↦{fullShare} G 3)
          ∗ (((c : Thread nD τ).loc main_v23) ↦{fullShare} G 4) ∗ (((c : Thread nD τ).loc main_v25) ↦{fullShare} G 5)) := by
  rw [arrays_univ, bigSep_W1]
  simp only [share0, share1, share2, share3, share4, share5]

/-- The buffers behind the arrays, each whole, make the arrays at the windows' shares. -/
theorem split (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (Pairs.dat V c).arrays G := by
  rw [arrBufs_eq, arrays_eq, hG 0, hG 1, hG 2, hG 3, hG 4, hG 5]
  have hs : ((((c : Thread nD τ).loc main_v24) ↦{fullShare} W main_v24 : sProp 𝕄))
      ⊢ iprop((((c : Thread nD τ).loc main_v24) ↦{fullShare.left} W main_v24) ∗ (((c : Thread nD τ).loc main_v24) ↦{fullShare.right} W main_v24)) :=
    (pointsTo_share (PosShare.mem_left_op_right fullShare)).1
  iintro ⟨H24, H21, H22, H23, H25⟩
  ihave H := hs $$ H24
  icases H with ⟨Hl, Hr⟩
  isplitl [Hl]; · iexact Hl
  isplitl [Hr]; · iexact Hr
  isplitl [H21]; · iexact H21
  isplitl [H22]; · iexact H22
  isplitl [H23]; · iexact H23
  iexact H25

/-- and back. -/
theorem join (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    ((Pairs.dat V c).arrays G : sProp 𝕄) ⊢ Pipeline.arrBufs (Ix := Unit) (Name := ℕ) (U := UR sig nD τ) (Lvl := ℕ) spec1 c W := by
  rw [arrBufs_eq, arrays_eq, hG 0, hG 1, hG 2, hG 3, hG 4, hG 5]
  have hj : iprop((((c : Thread nD τ).loc main_v24) ↦{fullShare.left} W main_v24) ∗ (((c : Thread nD τ).loc main_v24) ↦{fullShare.right} W main_v24))
      ⊢ ((((c : Thread nD τ).loc main_v24) ↦{fullShare} W main_v24 : sProp 𝕄)) :=
    (pointsTo_share (PosShare.mem_left_op_right fullShare)).2
  iintro ⟨Hl, Hr, H21, H22, H23, H25⟩
  isplitl [Hl Hr]
  · iapply hj
    isplitl [Hl]; · iexact Hl
    iexact Hr
  isplitl [H21]; · iexact H21
  isplitl [H22]; · iexact H22
  isplitl [H23]; · iexact H23
  iexact H25

/-- ENTRY: a core's unscoped buffers are the region's arrays at their entry contents and the rest. -/
theorem entry (c : Dev nD) :
    (unscopedBufs c (V c) : sProp 𝕄) ⊢ iprop((Pairs.dat V c).arrays (fun w => (Pairs.dat V c).arrAt w 0)
      ∗ Pipeline.unscopedRest (Ix := Unit) (Name := ℕ) (U := UR sig nD τ) (Lvl := ℕ) spec1 c (V c)) := by
  rw [Pipeline.unscopedBufs_split₀ cfgs 1 winFacts₀1.arr_unscoped c (V c)]
  exact sep_mono (split V c (V c) _ fun w => by rw [show (Pairs.dat V c).arrAt w 0 = (Pairs.dat V c).A w from rfl, Pairs.A_eq]) .rfl

/-- EXIT: the arrays at G and the rest are the unscoped buffers at any contents that have the arrays at G and agree with
    the entry contents elsewhere. -/
theorem exit (c : Dev nD) (W' : (b : Ref sig .tc) → Buf (Elt F) ((c : Thread nD τ).loc b))
    (G : (w : Fin cfg1.W) → Buf (Elt F) ((cfg1.win w).arr.view.loc (c : Thread nD τ))) (hG : ∀ w, G w = W' (Pipeline.arrRef spec1 w))
    (hrest : ∀ b, b ∉ Finset.univ.image (Pipeline.arrRef spec1) → W' b = V c b) :
    iprop((Pairs.dat V c).arrays G ∗ Pipeline.unscopedRest (Ix := Unit) (Name := ℕ) (U := UR sig nD τ) (Lvl := ℕ) spec1 c (V c))
      ⊢ (unscopedBufs c W' : sProp 𝕄) := by
  rw [Pipeline.unscopedBufs_split₀ cfgs 1 winFacts₀1.arr_unscoped c W']
  refine sep_mono (join V c W' G hG) (Entails.of_eq ?_)
  unfold Pipeline.unscopedRest
  exact bigSep_congr fun b hb => by rw [hrest b (Finset.mem_sdiff.mp hb).2]

/-! ## The buffer contents at each boundary of @main -/

variable (m : (ℓ : Loc nD τ sig) → Buf (Elt F) ℓ) (ρ : Dev nD → PrngReg)

/-- Core c's buffers at launch; -/
abbrev W0 : Dev nD → Valuation τ sig (Elt F) := fun c b => (s₀ m ρ).mem ((c : Dev nD), b)
/-- after the host operations before the first region (the first region's entry); -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- at the first region's exit, which is the second region's entry: the normalized matrix at what the write-backs leave,
    every other buffer as entered; -/
def W2 (c : Dev nD) : Valuation τ sig (Elt F) :=
  Pipeline.withArrays spec0 c (W1 m ρ c) fun w => (Rows.dat (V1 m ρ) c).arrAt w cfg0.N
theorem W2_arr (c : Dev nD) (w : Fin cfg0.W) :
    W2 m ρ c (Proc.devRef .tc (Pipeline.arrRef spec0 w)) = (Rows.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Rows.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- at the second region's exit: the block sums' array at what the write-backs leave, every other buffer as entered; -/
def W3 (c : Dev nD) : Valuation τ sig (Elt F) :=
  Function.update (W2 m ρ c) (Proc.devRef .tc main_v25) ((Pairs.dat (V2 m ρ) c).arrAt 5 cfg1.N)
abbrev V3 : (c : Dev nD) → (b : Ref sig .tc) → Buf (Elt F) ((c : Thread nD τ).loc b) := fun c b => W3 m ρ c b
theorem W3_out (c : Dev nD) : W3 m ρ c (Proc.devRef .tc main_v25) = (Pairs.dat (V2 m ρ) c).arrAt 5 cfg1.N := by
  unfold W3; exact Function.update_self _ _ _
theorem W3_of_ne (c : Dev nD) (b : Ref sig .tc) (hb : b ≠ main_v25) : W3 m ρ c (Proc.devRef .tc b) = W2 m ρ c (Proc.devRef .tc b) := by
  unfold W3; exact Function.update_of_ne (StableHlo.devRef_ne_of_ne hb) _ _
/-- after the host operations that follow. -/
abbrev W4 : Dev nD → Valuation τ sig (Elt F) := fun c => StableHlo.after hostOps2 (W3 m ρ c)

/-- At its exit each of the second region's arrays holds what the valuation says: an input as entered, the output as
    written back. -/
theorem hF1 (c : Dev nD) : ∀ w : Fin cfg1.W, (Pairs.dat (V2 m ρ) c).arrAt w cfg1.N = V3 m ρ c (Pipeline.arrRef spec1 w)
  | ⟨0, _⟩ => (((Pairs.dat (V2 m ρ) c).arrAt_in 0 rfl _).trans (Pairs.A_eq (V2 m ρ) c 0)).trans (W3_of_ne m ρ c main_v24 (by decide)).symm
  | ⟨1, _⟩ => (((Pairs.dat (V2 m ρ) c).arrAt_in 1 rfl _).trans (Pairs.A_eq (V2 m ρ) c 1)).trans (W3_of_ne m ρ c main_v24 (by decide)).symm
  | ⟨2, _⟩ => (((Pairs.dat (V2 m ρ) c).arrAt_in 2 rfl _).trans (Pairs.A_eq (V2 m ρ) c 2)).trans (W3_of_ne m ρ c main_v21 (by decide)).symm
  | ⟨3, _⟩ => (((Pairs.dat (V2 m ρ) c).arrAt_in 3 rfl _).trans (Pairs.A_eq (V2 m ρ) c 3)).trans (W3_of_ne m ρ c main_v22 (by decide)).symm
  | ⟨4, _⟩ => (((Pairs.dat (V2 m ρ) c).arrAt_in 4 rfl _).trans (Pairs.A_eq (V2 m ρ) c 4)).trans (W3_of_ne m ρ c main_v23 (by decide)).symm
  | ⟨5, _⟩ => (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨5, Finset.mem_univ _, e.symm⟩)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => Rows.dat (V1 m ρ) c
  | ⟨1, _⟩ => fun c => Pairs.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Rows.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W2, left at W3. Its arrays are split out of the unscoped
    buffers at entry, the normalized matrix between its two windows, and joined back at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Pairs.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V2 m ρ c)) :=
      entry (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Pairs.Phi_in (V2 m ρ) c)
    unfold Pipeline.ΦA
    iintro ⟨Hp, -, Hr⟩
    isplitl [Hr]; · iexact Hr
    iexact Hp
  hout c := by
    rw [Pipeline.ownSems0_none]
    refine (Pairs.Phi_last (V2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (unscopedBufs c (V3 m ρ c) : sProp 𝕄) :=
      exit (V2 m ρ) c (V3 m ρ c) ((Pairs.dat (V2 m ρ) c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub ops0_fresh (W0 m ρ)),
    .region (reg0 m ρ),
    .region (reg1 m ρ),
    .host (hseg hostOps2 hostOps2_sub ops2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and in
    every final state each unscoped buffer holds what the last boundary's valuation says. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

/-- No host operation writes the feature matrix, the first region only reads it, the second does not touch it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((Rows.dat (V1 m ρ) c).arrAt_in 0 rfl _).trans (Rows.A_eq (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- No host operation writes the labels and no region has them as a window's array. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The frame: every execution terminates, nothing faulting, with both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run m ρ)

end Cert.KernelIdeal.Whole

end
-- ==== Proof.LibBlockSum.lean ====
/-
  A sum over `a * b` consecutive indices, cut into `a` consecutive blocks of `b` indices each: the whole sum is the
  sum over the blocks of the sums inside each block. Only commutativity and associativity of `+` are used, so the
  law holds in every commutative additive monoid — in particular on the extended reals, where no finiteness is needed.
-/
import Mathlib.Algebra.BigOperators.Fin
import Mathlib.Logic.Equiv.Fin.Basic

namespace Cert.BlockSum

open Finset

/-- Position `j` of block `k` is an index below `a * b`. -/
theorem block_lt {a b : ℕ} (k : Fin a) (j : Fin b) : k.val * b + j.val < a * b :=
  Nat.lt_of_lt_of_le (Nat.add_lt_add_left j.isLt _) (by rw [← Nat.succ_mul]; exact Nat.mul_le_mul_right _ k.isLt)

/-- The sum of `g` over the `a * b` indices, read block by block: block `k` holds the indices `k * b + j`, `j < b`. -/
theorem sum_blocks {M : Type*} [AddCommMonoid M] (a b : ℕ) (g : Fin (a * b) → M) :
    ∑ i : Fin (a * b), g i = ∑ k : Fin a, ∑ j : Fin b, g ⟨k.val * b + j.val, block_lt k j⟩ := by
  rw [← finProdFinEquiv.sum_comp, Fintype.sum_prod_type]
  refine Finset.sum_congr rfl fun k _ => Finset.sum_congr rfl fun j _ => congrArg g (Fin.ext ?_)
  show j.val + b * k.val = k.val * b + j.val
  rw [Nat.mul_comm, Nat.add_comm]

/-- The same over `n` indices when `n` is the product `a * b`. -/
theorem sum_blocks_of_eq {M : Type*} [AddCommMonoid M] (a b n : ℕ) (hn : a * b = n) (g : Fin n → M) :
    ∑ i : Fin n, g i = ∑ k : Fin a, ∑ j : Fin b, g ⟨k.val * b + j.val, hn ▸ block_lt k j⟩ := by
  subst hn
  exact sum_blocks a b g

end Cert.BlockSum
-- ==== Proof.Spec.lean ====
/-
  The quantity both programs compute, as one function of the inputs' coordinates on the extended reals.

  Each row of the feature matrix is divided by its Euclidean norm, the norm clamped below by a small positive
  constant; the similarity of two samples is the inner product of their unit rows; a pair (i, j) of distinct
  samples with equal labels contributes the squared similarity divided by (the size of sample i's class times the
  row length 1024), every other pair contributes 0 divided by the same quantity; the result is the sum of all
  8192 x 8192 contributions divided by the number of classes present. The class sizes `ni` and the number of
  classes `nu` are parameters here: both programs obtain them from the labels by the same operations, and nothing
  below looks inside them.

  The last statement cuts the double sum into the 8 x 8 blocks of 1024 x 1024 pairs. Only commutativity and
  associativity of addition are used, so no contribution needs to be finite.
-/
import Idealize.ShloMosaic.PureOps.Ideal
import proofs.«131435_j72533407695362_1_alg».proof.Proof.LibBlockSum

noncomputable section

namespace Cert.Spec

open Idealize.ShloMosaic

/-- The lower clamp of a row's norm (the single-precision number nearest 1e-12). -/
def eps : EReal := Ideal.ofBits .f32 0x2B8CBCCC#32
/-- The row length, 1024, as a single-precision number. -/
def k1024 : EReal := Ideal.ofBits .f32 0x44800000#32

variable (x : Fin 8192 → Fin 1024 → EReal) (lab : Fin 8192 → BitVec 32) (ni : Fin 8192 → EReal)

/-- Row i's Euclidean norm, clamped below. -/
def rowNorm (i : Fin 8192) : EReal := max (Ideal.sqrt (∑ k : Fin 1024, x i k * x i k)) eps
/-- Entry d of row i's unit vector. -/
def unitRow (i : Fin 8192) (d : Fin 1024) : EReal := Ideal.div (x i d) (rowNorm x i)
/-- The similarity of samples i and j. -/
def sim (i j : Fin 8192) : EReal := ∑ d : Fin 1024, unitRow x i d * unitRow x j d
/-- What the pair (i, j) contributes. -/
def contrib (i j : Fin 8192) : EReal :=
  Ideal.div (if lab i = lab j ∧ i ≠ j then sim x i j * sim x i j else 0) (ni i * k1024)
/-- The sum of all contributions. -/
def total : EReal := ∑ i : Fin 8192, ∑ j : Fin 8192, contrib x lab ni i j

/-- Sample r of row block I. -/
def inBlock (I : Fin 8) (r : Fin 1024) : Fin 8192 := ⟨I.val * 1024 + r.val, by have := I.isLt; have := r.isLt; omega⟩

/-- The contributions of the pairs in block (I, J). -/
def blockSum (I J : Fin 8) : EReal :=
  ∑ r : Fin 1024, ∑ q : Fin 1024, contrib x lab ni (inBlock I r) (inBlock J q)

/-- The total is the sum over the 64 blocks of the blocks' sums. -/
theorem total_eq_blocks : total x lab ni = ∑ I : Fin 8, ∑ J : Fin 8, blockSum x lab ni I J := by
  have h8 : 8 * 1024 = 8192 := by norm_num
  unfold total blockSum
  rw [Cert.BlockSum.sum_blocks_of_eq 8 1024 8192 h8 (fun i => ∑ j : Fin 8192, contrib x lab ni i j)]
  refine Finset.sum_congr rfl fun I _ => ?_
  rw [Finset.sum_comm (f := fun (J : Fin 8) (r : Fin 1024) => ∑ q : Fin 1024, contrib x lab ni (inBlock I r) (inBlock J q))]
  refine Finset.sum_congr rfl fun r _ => ?_
  exact Cert.BlockSum.sum_blocks_of_eq 8 1024 8192 h8 (fun j => contrib x lab ni (inBlock I r) j)

/-- The result: the total over the number of classes present. -/
def result (nu : EReal) : EReal := Ideal.div (total x lab ni) nu

end Cert.Spec

end
-- ==== Proof.RefIsSpec.lean ====
/-
  The reference program computes the quantity fixed in the specification.

  The reference's stages are read one at a time at explicit coordinates: a row's sum of squares, its clamped
  norm, the unit row, the similarity of two samples (the contraction over the 1024 columns), the mask of the
  pairs of distinct samples with equal labels, the masked squared similarity, the denominator (class size times
  the row length), one pair's contribution, the sum of all contributions, and the quotient by the number of
  classes. The class sizes and the number of classes are the stages the reference obtains from the labels; they
  are kept folded and passed to the specification as its parameters.
-/
import proofs.«131435_j72533407695362_1_alg».proof.Proof.RefRead
import proofs.«131435_j72533407695362_1_alg».proof.Proof.Spec
import Idealize.ShloMosaic.Lib.ValueIdx
import Idealize.ShloMosaic.Lib.Pipeline.Value
import Idealize.ShloMosaic.PureOps.Ideal.Laws

noncomputable section

namespace Cert.RefIsSpec

open Cert.ReferenceIdeal Cert.ReferenceIdeal.ReadP Idealize.ShloMosaic Idealize.ShloMosaic.ValueIdx

/-- The size of sample a's class, as the reference obtains it from the labels (a gather from a scatter-add; never opened). -/
def ni (x1 : (⟨S8192, .i32⟩ : BufTy).Contents (Elt Ideal)) (a : Fin 8192) : EReal := val_main_v38 (F := Ideal) x1 (ix1 a)
/-- The number of classes present, as the reference obtains it from the labels (never opened). -/
def nu (x1 : (⟨S8192, .i32⟩ : BufTy).Contents (Elt Ideal)) : EReal := val_main_v31 (F := Ideal) x1 ix0

/-- The feature matrix read by coordinates. -/
abbrev feat (x0 : (⟨S8192x1024, .f32⟩ : BufTy).Contents (Elt Ideal)) : Fin 8192 → Fin 1024 → EReal :=
  fun a d => x0 (ix2 a d)
/-- The labels read by coordinate. -/
abbrev labs (x1 : (⟨S8192, .i32⟩ : BufTy).Contents (Elt Ideal)) : Fin 8192 → BitVec 32 :=
  fun a => x1 (ix1 a)

/-! ## The float side: norms, unit rows, similarities -/

/-- Row a's sum of squares: the host sum over the columns starts from the zero word, which is 0. -/
theorem rowsum_read (x0 : (⟨S8192x1024, .f32⟩ : BufTy).Contents (Elt Ideal)) (a : Fin 8192) :
    val_main_call0_v1 (F := Ideal) x0 (ix1 a) = ∑ k : Fin 1024, x0 (ix2 a k) * x0 (ix2 a k) := by
  refine (val_main_call0_v1_apply x0 (ix1 a)).trans ?_
  show Ideal.ofBits .f32 0x00000000#32 + _ = _
  rw [Ideal.ofBits_zero_f32, zero_add]
  refine Finset.sum_congr rfl fun k _ => ?_
  have e : idx_main_call0_v1 (ix1 a) k = ix2 a k := funext fun d => by
    match d with | ⟨0, _⟩ => rfl | ⟨1, _⟩ => rfl
  rw [e]
  rfl

/-- Row a's clamped norm. -/
theorem norm_read (x0 : (⟨S8192x1024, .f32⟩ : BufTy).Contents (Elt Ideal)) (a : Fin 8192) :
    val_main_v2 (F := Ideal) x0 (ix2 a (0 : Fin 1)) = Cert.Spec.rowNorm (feat x0) a := by
  have e : idx_main_call0_v2 (ix2 a (0 : Fin 1)) = ix1 a := funext fun d => by
    match d with | ⟨0, _⟩ => rfl
  show max (Ideal.sqrt (val_main_call0_v2 (F := Ideal) x0 (ix2 a (0 : Fin 1))))
      (val_main_v1 (F := Ideal) (ix2 a (0 : Fin 1))) = _
  rw [val_main_call0_v2_apply, e, rowsum_read, val_main_v1_apply]
  rfl

/-- Entry d of row a's unit vector. -/
theorem unit_read (x0 : (⟨S8192x1024, .f32⟩ : BufTy).Contents (Elt Ideal)) (a : Fin 8192) (d : Fin 1024) :
    val_main_v4 (F := Ideal) x0 (ix2 a d) = Cert.Spec.unitRow (feat x0) a d := by
  have e : idx_main_v3 (ix2 a d) = ix2 a (0 : Fin 1) := funext fun c => by
    match c with | ⟨0, _⟩ => rfl | ⟨1, _⟩ => rfl
  show Ideal.div (x0 (ix2 a d)) (val_main_v3 (F := Ideal) x0 (ix2 a d)) = _
  rw [val_main_v3_apply, e, norm_read]
  rfl

/-- The similarity of samples a and b: the contraction over the columns of the two unit rows. -/
theorem sim_read (x0 : (⟨S8192x1024, .f32⟩ : BufTy).Contents (Elt Ideal)) (a b : Fin 8192) :
    val_main_v5 (F := Ideal) x0 (ix2 a b) = Cert.Spec.sim (feat x0) a b := by
  refine (val_main_v5_apply x0 (ix2 a b)).trans ?_
  unfold Cert.Spec.sim
  refine Finset.sum_congr rfl fun k _ => ?_
  have el : lidx_main_v5 (ix2 a b) k = ix2 a k := funext fun c => by
    match c with | ⟨0, _⟩ => rfl | ⟨1, _⟩ => rfl
  have er : ridx_main_v5 (ix2 a b) k = ix2 b k := funext fun c => by
    match c with | ⟨0, _⟩ => rfl | ⟨1, _⟩ => rfl
  rw [el, er, unit_read, unit_read]

/-! ## The mask: distinct samples with equal labels -/

/-- Two coordinates below 8192 are equal exactly when their 32-bit words are (the row word carries an added 0). -/
theorem word_eq_iff (a b : Fin 8192) : BitVec.ofNat 32 a.val + 0#32 = BitVec.ofNat 32 b.val ↔ a = b := by
  rw [BitVec.add_zero]
  constructor
  · intro h
    have h2 := congrArg BitVec.toNat h
    simp only [BitVec.toNat_ofNat] at h2
    have ha := a.isLt
    have hb := b.isLt
    exact Fin.ext (by omega)
  · intro h
    rw [h]

/-- The conjunction of one bit with the complement of another is 1 exactly when the first holds and the second fails. -/
theorem bit_and_not (p q : Bool) : BitVec.ofBool p &&& ~~~(BitVec.ofBool q) = 1#1 ↔ p = true ∧ q = false := by
  cases p <;> cases q <;> decide

/-- The mask's word from the two labels and the two coordinates. -/
theorem mask_bit (u v : BitVec 32) (a b : Fin 8192) :
    IntOp.andi (IntOp.cmpi .eq u v)
        (~~~(IntOp.cmpi .eq (IntOp.addi (BitVec.ofNat 32 a.val) 0#32) (BitVec.ofNat 32 b.val))) = 1#1
      ↔ (u = v ∧ a ≠ b) := by
  show BitVec.ofBool (u == v) &&& ~~~(BitVec.ofBool (BitVec.ofNat 32 a.val + 0#32 == BitVec.ofNat 32 b.val)) = 1#1 ↔ _
  rw [bit_and_not, beq_iff_eq, beq_eq_false_iff_ne, ne_eq, word_eq_iff]

/-- The mask at (a, b) is 1 exactly for distinct samples with equal labels. -/
theorem mask_read (x1 : (⟨S8192, .i32⟩ : BufTy).Contents (Elt Ideal)) (a b : Fin 8192) :
    val_main_v17 (F := Ideal) x1 (ix2 a b) = 1#1 ↔ (labs x1 a = labs x1 b ∧ a ≠ b) := by
  have e8 : val_main_v8 (F := Ideal) x1 (ix2 a b) = x1 (ix1 a) := by
    rw [val_main_v8_apply, val_main_v6_apply]
    exact congrArg x1 (funext fun c => by match c with | ⟨0, _⟩ => rfl)
  have e9 : val_main_v9 (F := Ideal) x1 (ix2 a b) = x1 (ix1 b) := by
    rw [val_main_v9_apply, val_main_v7_apply]
    exact congrArg x1 (funext fun c => by match c with | ⟨0, _⟩ => rfl)
  have e13 : val_main_v13 (F := Ideal) (ix2 a b) = 0#32 := by
    rw [val_main_v13_apply]
    rfl
  show IntOp.andi (IntOp.cmpi .eq (val_main_v8 (F := Ideal) x1 (ix2 a b)) (val_main_v9 (F := Ideal) x1 (ix2 a b)))
      (~~~(IntOp.cmpi .eq (IntOp.addi (BitVec.ofNat 32 a.val) (val_main_v13 (F := Ideal) (ix2 a b))) (BitVec.ofNat 32 b.val))) = 1#1 ↔ _
  rw [e8, e9, e13]
  exact mask_bit (x1 (ix1 a)) (x1 (ix1 b)) a b

/-! ## One pair's contribution -/

/-- The masked squared similarity: the select reads as the if-then-else on the mask. -/
theorem sel_read (x0 : (⟨S8192x1024, .f32⟩ : BufTy).Contents (Elt Ideal)) (x1 : (⟨S8192, .i32⟩ : BufTy).Contents (Elt Ideal))
    (a b : Fin 8192) :
    val_main_v40 (F := Ideal) x0 x1 (ix2 a b) =
      if labs x1 a = labs x1 b ∧ a ≠ b then Cert.Spec.sim (feat x0) a b * Cert.Spec.sim (feat x0) a b else 0 := by
  have h0 : val_main_call1_v1 (F := Ideal) (ix2 a b) = 0 := by
    rw [val_main_call1_v1_apply]
    exact Ideal.ofBits_zero_f32
  have h39 : val_main_v39 (F := Ideal) x0 (ix2 a b) = Cert.Spec.sim (feat x0) a b * Cert.Spec.sim (feat x0) a b := by
    show val_main_v5 (F := Ideal) x0 (ix2 a b) * val_main_v5 (F := Ideal) x0 (ix2 a b) = _
    rw [sim_read]
  show Scalar.select (val_main_v17 (F := Ideal) x1 (ix2 a b)) (val_main_v39 (F := Ideal) x0 (ix2 a b))
      (val_main_call1_v1 (F := Ideal) (ix2 a b)) = _
  rw [h0, h39]
  by_cases h : labs x1 a = labs x1 b ∧ a ≠ b
  · rw [if_pos h, (mask_read x1 a b).mpr h, select_one]
  · rw [if_neg h, eq_zero_of_ne_one (fun hc => h ((mask_read x1 a b).mp hc)), select_zero]

/-- The denominator: sample a's class size times the row length. -/
theorem den_read (x1 : (⟨S8192, .i32⟩ : BufTy).Contents (Elt Ideal)) (a b : Fin 8192) :
    val_main_v44 (F := Ideal) x1 (ix2 a b) = ni x1 a * Cert.Spec.k1024 := by
  have e : idx_main_v44 (ix2 a b) = ix2 a (0 : Fin 1) := funext fun c => by
    match c with | ⟨0, _⟩ => rfl | ⟨1, _⟩ => rfl
  have e2 : idx_main_v41 (ix2 a (0 : Fin 1)) = ix1 a := funext fun c => by
    match c with | ⟨0, _⟩ => rfl
  rw [val_main_v44_apply, e]
  show val_main_v41 (F := Ideal) x1 (ix2 a (0 : Fin 1)) * val_main_v42 (F := Ideal) (ix2 a (0 : Fin 1)) = _
  rw [val_main_v41_apply, val_main_v42_apply, e2]
  rfl

/-- What the pair (a, b) contributes. -/
theorem contrib_read (x0 : (⟨S8192x1024, .f32⟩ : BufTy).Contents (Elt Ideal)) (x1 : (⟨S8192, .i32⟩ : BufTy).Contents (Elt Ideal))
    (a b : Fin 8192) :
    val_main_v45 (F := Ideal) x0 x1 (ix2 a b) = Cert.Spec.contrib (feat x0) (labs x1) (ni x1) a b := by
  show Ideal.div (val_main_v40 (F := Ideal) x0 x1 (ix2 a b)) (val_main_v44 (F := Ideal) x1 (ix2 a b)) = _
  rw [sel_read, den_read]
  rfl

/-! ## The total and the result -/

/-- The host sum over both axes, from the zero word, is the double sum of the contributions. -/
theorem total_read (x0 : (⟨S8192x1024, .f32⟩ : BufTy).Contents (Elt Ideal)) (x1 : (⟨S8192, .i32⟩ : BufTy).Contents (Elt Ideal))
    (i : S_.Idx) :
    val_main_v46 (F := Ideal) x0 x1 i = Cert.Spec.total (feat x0) (labs x1) (ni x1) := by
  refine (val_main_v46_apply x0 x1 i).trans ?_
  show Ideal.ofBits .f32 0x00000000#32 + _ = _
  rw [Ideal.ofBits_zero_f32, zero_add, sum_idx2]
  unfold Cert.Spec.total
  refine Finset.sum_congr rfl fun a _ => Finset.sum_congr rfl fun b _ => ?_
  exact contrib_read x0 x1 a b

/-- The reference's result is the specification's. -/
theorem ref_eq (x0 : (⟨S8192x1024, .f32⟩ : BufTy).Contents (Elt Ideal)) (x1 : (⟨S8192, .i32⟩ : BufTy).Contents (Elt Ideal)) (i : S_.Idx) :
    val_main_v47 (F := Ideal) x0 x1 i = Cert.Spec.result (fun a d => x0 (ix2 a d)) (fun a => x1 (ix1 a)) (ni x1) (nu x1) := by
  have hi : i = ix0 := eq_ix0 i
  subst hi
  show Ideal.div (val_main_v46 (F := Ideal) x0 x1 ix0) (val_main_v31 (F := Ideal) x1 ix0) = _
  rw [total_read]
  rfl

end Cert.RefIsSpec

end
-- ==== Proof.PayloadReads.lean ====
/-
  The kernel bodies' arithmetic, read at an index on the extended reals.

  Each of the two kernel bodies stores values that are pure functions of what it loaded. Here every such
  function is read at one index, as an expression in the loaded values at explicit coordinates: the
  normalising body's quotient of an entry by its row's clamped Euclidean norm; the pairwise body's row sums
  of masked squared inner products over a scaled class size; the accumulator's update, its reset, and the
  output block that repeats the accumulator's one entry.
-/
import proofs.«131435_j72533407695362_1_alg».proof.Proof.Gen.KernelIdeal.Skeleton
import proofs.«131435_j72533407695362_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadReads

open Cert.KernelIdeal Cert.KernelIdeal.Gen Idealize.ShloMosaic Idealize.ShloMosaic.ValueIdx

/-! ## Indices over a reduced index -/

/-- Over row `r` of a 1024 x 1024 block, the index with column `k` put back. -/
theorem lift_row (h : S1024x1024.Reduces [1] S1024) (r k : Fin 1024) : h.lift (ix1 r) k = ix2 r k := by
  funext c
  match c with
  | ⟨0, _⟩ => rfl
  | ⟨1, _⟩ => rfl

/-- Over the one entry of a reduced column, the index with row `k` put back. -/
theorem lift_col (h : S1024x1.Reduces [0] S1) (u : Fin 1) (k : Fin 1024) : h.lift (ix1 u) k = ix2 k u := by
  funext c
  match c with
  | ⟨0, _⟩ => rfl
  | ⟨1, _⟩ => rfl

/-- The accumulator's reset. -/
theorem pay_zero (j : S1x1.Idx) : k1_pay3 (F := Ideal) j = 0 := by
  unfold k1_pay3
  rw [shapeCast_self]
  exact Ideal.ofBits_zero_f32

/-- The output block: the accumulator's one entry at every position. -/
theorem pay_out (v49 : Vec Ideal S1x1 .f32) (j : S1x8x128.Idx) : k1_pay2 (F := Ideal) v49 j = v49 (ix2 0 0) := by
  unfold k1_pay2
  refine (broadcastTo_apply _ _ j (ix3 0 0 0) (fun a => ?_)).trans ?_
  · match a with
    | ⟨0, _⟩ => rfl
    | ⟨1, _⟩ => rfl
    | ⟨2, _⟩ => rfl
  · exact shapeCast_apply _ _ _ (ix2 0 0) rfl

/-! ## Sums along an axis -/

/-- A row sum of a 1024 x 1024 block, entry `r`: the sum over the row's columns. -/
theorem rowSum_apply (x : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 x 0x00000000#32 h hφ hacc (ix1 r) = ∑ k : Fin 1024, x (ix2 r k) := by
  refine (Ideal.multiReduction_add_single x _ h hφ hacc (ix1 r)).trans ?_
  exact Finset.sum_congr rfl fun k _ => congrArg x (lift_row h r k)

/-- The sum of a 1024 x 1 column, its one entry: the sum over the rows. -/
theorem colSum_apply (x : FVec Ideal S1024x1 .f32) (h : S1024x1.Reduces [0] S1) (hφ : FKind.Formats .f32)
    (hacc : (0x00000000#32 : BitVec 32) = FKind.add.neutral .f32 hφ) (u : Fin 1) :
    multiReduction (F := Ideal) .add [0] S1 x 0x00000000#32 h hφ hacc (ix1 u) = ∑ k : Fin 1024, x (ix2 k u) := by
  refine (Ideal.multiReduction_add_single x _ h hφ hacc (ix1 u)).trans ?_
  exact Finset.sum_congr rfl fun k _ => congrArg x (lift_col h u k)

/-- A length-1024 vector viewed as a column reads its entry `k` at `(k, u)`. -/
theorem colCast_apply {α : Type} (x : S1024.Idx → α) (h : S1024.ShapeCasts S1024x1) (k : Fin 1024) (u : Fin 1) :
    shapeCast S1024x1 x h (ix2 k u) = x (ix1 k) :=
  shapeCast_apply x h _ _ (by
    have hu : u.val = 0 := by omega
    rw [Shape.rowMajor_val_two, Shape.rowMajor_val_one]
    show k.val = k.val * 1 + u.val
    omega)

/-- The accumulator's update: what was there plus the sum of the row sums. -/
theorem pay_acc (v37 : FVec Ideal S1024 .f32) (v41 : Vec Ideal S1x1 .f32) (j : S1x1.Idx) :
    k1_pay1 (F := Ideal) v37 v41 j = v41 j + ∑ r : Fin 1024, v37 (ix1 r) := by
  unfold k1_pay1
  rw [shapeCast_self]
  refine congrArg (v41 j + ·) ?_
  refine (shapeCast_apply _ _ j (ix1 0) ?_).trans ?_
  · rw [Shape.rowMajor_val_two, Shape.rowMajor_val_one]
    have h0 : (j 0).val < 1 := (j 0).isLt
    have h1 : (j 1).val < 1 := (j 1).isLt
    show (0 : ℕ) = (j 0).val * 1 + (j 1).val
    omega
  · refine (colSum_apply _ _ _ _ 0).trans ?_
    exact Finset.sum_congr rfl fun k _ => colCast_apply v37 _ k 0

/-! ## A column spread over the columns -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first body -/

/-- The first body: entry (r,d) of the stored block is the loaded entry over its row's clamped Euclidean norm. -/
theorem pay_unit (v0 : Vec Ideal S1024x1024 .f32) (r d : Fin 1024) :
    k0_pay1 (F := Ideal) v0 (ix2 r d)
      = Ideal.div (v0 (ix2 r d)) (max (Ideal.sqrt (∑ k : Fin 1024, v0 (ix2 r k) * v0 (ix2 r k))) Cert.Spec.eps) := by
  unfold k0_pay1
  show Ideal.div (v0 (ix2 r d)) (broadcastTo S1024x1024 _ _ (ix2 r d)) = _
  refine congrArg (Ideal.div (v0 (ix2 r d))) ?_
  refine (broadcastTo_a1_ab_apply _ _ r d).trans ?_
  show max (Ideal.sqrt (shapeCast S1024x1 _ _ (ix2 r 0))) (Ideal.ofBits .f32 0x2B8CBCCC#32) = _
  unfold Cert.Spec.eps
  refine congrArg (fun t => max (Ideal.sqrt t) _) ?_
  refine (colCast_apply _ _ r 0).trans ?_
  exact rowSum_apply _ _ _ _ r

/-! ## The product of the two loaded blocks: both operands contract their second axis -/

/-- The product's dimension numbers. -/
abbrev dot11 : DotDims S1024x1024 S1024x1024 S1024x1024 := dot_S1024x1024_S1024x1024_S1024x1024_1_1_0_0_n_n

/-- The left operand's row coordinate is the output's row. -/
theorem lhs_0 (j : S1024x1024.Idx) (k : dot11.contr.Idx) : (dot11.lhsIdx j k 0 : ℕ) = j 0 := by
  simp [DotDims.lhsIdx, dot11, dot_S1024x1024_S1024x1024_S1024x1024_1_1_0_0_n_n]; rfl
/-- The right operand's row coordinate is the output's column. -/
theorem rhs_0 (j : S1024x1024.Idx) (k : dot11.contr.Idx) : (dot11.rhsIdx j k 0 : ℕ) = j 1 := by
  simp [DotDims.rhsIdx, dot11, dot_S1024x1024_S1024x1024_S1024x1024_1_1_0_0_n_n]; rfl

/-- One axis is contracted, -/
theorem contr_rank : dot11.contr.rank = 1 := rfl
/-- of extent 1024. -/
theorem contr_size : dot11.contr.size ⟨0, by rw [contr_rank]; exact Nat.one_pos⟩ = 1024 := rfl

/-- The left operand's index at output `(r, q)` and contraction position `d` is `(r, d)`. -/
theorem lhsIdx_eq (r q d : Fin 1024) :
    dot11.lhsIdx (ix2 r q) ((contrEquiv1 dot11 1024 contr_rank contr_size).symm d) = ix2 r d := by
  funext c
  refine Fin.ext ?_
  match c with
  | ⟨0, _⟩ => exact lhs_0 _ _
  | ⟨1, _⟩ =>
    exact (dot11.lhsIdx_val_of_single (cl := 1) rfl _ _).trans (contrEquiv1_symm_val dot11 1024 contr_rank contr_size d)

/-- The right operand's index at output `(r, q)` and contraction position `d` is `(q, d)`. -/
theorem rhsIdx_eq (r q d : Fin 1024) :
    dot11.rhsIdx (ix2 r q) ((contrEquiv1 dot11 1024 contr_rank contr_size).symm d) = ix2 q d := by
  funext c
  refine Fin.ext ?_
  match c with
  | ⟨0, _⟩ => exact rhs_0 _ _
  | ⟨1, _⟩ =>
    exact (dot11.rhsIdx_val_of_single (cr := 1) rfl _ _).trans (contrEquiv1_symm_val dot11 1024 contr_rank contr_size d)

/-- The product into a zero accumulator, entry `(r, q)`: the inner product of row `r` of the left block and row `q`
    of the right block. -/
theorem matmul_apply_rq (a b : FVec Ideal S1024x1024 .bf16) (r q : Fin 1024) :
    matmul (F := Ideal) dot11 none a b (constant S1024x1024 .f32 0x00000000#32) (ix2 r q)
      = ∑ d : Fin 1024, a (ix2 r d) * b (ix2 q d) := by
  refine (Ideal.matmul_constant_zero_apply dot11 none a b (ix2 r q)).trans ?_
  rw [← Equiv.sum_comp (contrEquiv1 dot11 1024 contr_rank contr_size).symm]
  refine Finset.sum_congr rfl fun d _ => ?_
  rw [lhsIdx_eq, rhsIdx_eq]

/-! ## The mask: equal labels, distinct samples -/

/-- The sample numbers `I * 1024 + r` with `I < 8` and `r < 1024` do not wrap in 32 bits: two of them are equal as
    words exactly when they are equal as naturals. -/
theorem word_eq_iff (I J r q : ℕ) (hI : I < 8) (hJ : J < 8) (hr : r < 1024) (hq : q < 1024) :
    IntOp.addi (BitVec.ofNat 32 r) (Scalar.muli (BitVec.ofNat 32 I) 1024#32)
        = IntOp.addi (BitVec.ofNat 32 q) (Scalar.muli (BitVec.ofNat 32 J) 1024#32)
      ↔ I * 1024 + r = J * 1024 + q := by
  unfold IntOp.addi Scalar.muli IntOp.muli
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-- The mask's bit: the first comparison holds and the second does not. -/
theorem mask_iff (x y u w : BitVec 32) :
    IntOp.andi (IntOp.cmpi .eq x y) (IntOp.xori (IntOp.cmpi .eq u w) 1#1) = 1#1 ↔ (x = y ∧ u ≠ w) := by
  unfold IntOp.andi IntOp.xori IntOp.cmpi
  have hx : (x == y) = decide (x = y) := by by_cases h : x = y <;> simp [h]
  have hu : (u == w) = decide (u = w) := by by_cases h : u = w <;> simp [h]
  rw [hx, hu]
  by_cases h1 : x = y <;> by_cases h2 : u = w <;> simp [h1, h2]

/-- A select between a square and a zero, on a bit that says `P`. -/
theorem select_mask (c : BitVec 1) (P : Prop) [Decidable P] (hc : c = 1#1 ↔ P) (x s z : EReal) (hx : x = s) (hz : z = 0) :
    Scalar.select c (x * x) z = if P then s * s else 0 := by
  subst hx; subst hz
  by_cases h : P
  · exact (if_pos (hc.mpr h)).trans (if_pos h).symm
  · exact (if_neg (fun e => h (hc.mp e))).trans (if_neg h).symm

/-! ## The second body's row sums -/

/-- The second body's row sums: row r of the block at grid point i. -/
theorem pay_rowsum (i : grid1.Coords) (v3 v5 : Vec Ideal S1024x1024 .bf16) (v8 : Vec Ideal S1024x1 .i32)
    (v10 : Vec Ideal S1x1024 .i32) (v28 : Vec Ideal S1024x1 .f32) (r : Fin 1024) :
    k1_pay4 (F := Ideal) i v3 v5 v8 v10 v28 (ix1 r)
      = ∑ q : Fin 1024, Ideal.div (if v8 (ix2 r 0) = v10 (ix2 0 q) ∧ (i 0).val * 1024 + r.val ≠ (i 1).val * 1024 + q.val
            then (∑ d : Fin 1024, v3 (ix2 r d) * v5 (ix2 q d)) * (∑ d : Fin 1024, v3 (ix2 r d) * v5 (ix2 q d)) else 0)
          (v28 (ix2 r 0) * Cert.Spec.k1024) := by
  have hI : (i 0).val < 8 := (i 0).isLt
  have hJ : (i 1).val < 8 := (i 1).isLt
  unfold k1_pay4
  refine (rowSum_apply _ _ _ _ r).trans ?_
  refine Finset.sum_congr rfl fun q _ => ?_
  show Ideal.div (Scalar.select (IntOp.andi (IntOp.cmpi .eq (broadcastTo S1024x1024 _ _ (ix2 r q)) (broadcastTo S1024x1024 _ _ (ix2 r q)))
          (IntOp.xori (IntOp.cmpi .eq (broadcastTo S1024x1024 _ _ (ix2 r q)) (broadcastTo S1024x1024 _ _ (ix2 r q))) 1#1))
        (matmul (F := Ideal) dot11 none _ _ _ (ix2 r q) * matmul (F := Ideal) dot11 none _ _ _ (ix2 r q)) (Ideal.ofBits .f32 0x00000000#32))
      (broadcastTo S1024x1024 _ _ (ix2 r q)) = _
  refine congrArg₂ Ideal.div ?_ ?_
  · refine select_mask _ _ ?_ _ _ _ ?_ Ideal.ofBits_zero_f32
    · refine (mask_iff _ _ _ _).trans (and_congr ?_ (not_congr ?_))
      · refine Eq.congr ?_ ?_
        · exact (broadcastTo_a1_ab_apply _ _ r q).trans (congrFun (shapeCast_self v8 _) _)
        · exact (broadcastTo_1b_ab_apply _ _ r q).trans (congrFun (shapeCast_self v10 _) _)
      · refine (Eq.congr ?_ ?_).trans (word_eq_iff (i 0).val (i 1).val r.val q.val hI hJ r.isLt q.isLt)
        · refine (broadcastTo_a1_ab_apply _ _ r q).trans ?_
          exact congrArg (fun t => IntOp.addi t _) (iota_single_apply .tc S1024x1 32 0 _ (ix2 r 0))
        · refine (broadcastTo_1b_ab_apply _ _ r q).trans ?_
          exact congrArg (fun t => IntOp.addi t _) (iota_single_apply .tc S1x1024 32 1 _ (ix2 0 q))
    · rw [shapeCast_self, shapeCast_self]
      exact matmul_apply_rq v3 v5 r q
  · refine (broadcastTo_a1_ab_apply _ _ r q).trans ?_
    unfold Cert.Spec.k1024
    exact congrArg (fun t => t * _) (congrFun (shapeCast_self v28 _) _)

end Cert.KernelIdeal.PayloadReads

end
-- ==== Proof.KernelIdeal.RowsValue.lean ====
/-
  What the first kernel region leaves in its output array, on the extended reals.

  At grid point t the region's body loads rows 1024 t … 1024 t + 1023 of the feature matrix and stores, for each
  loaded row, the row divided by its Euclidean norm clamped below. The eight blocks tile the 8192 rows, so after
  the region every row of the output array is the unit row of the same row of the feature matrix.
-/
import proofs.«131435_j72533407695362_1_alg».proof.Proof.KernelIdeal.Rows
import proofs.«131435_j72533407695362_1_alg».proof.Proof.PayloadReads
import proofs.«131435_j72533407695362_1_alg».proof.Proof.Spec
import Idealize.ShloMosaic.Lib.Pipeline.Value
import Idealize.ShloMosaic.Lib.ValueIdx
import Idealize.ShloMosaic.Lib.Tactic

noncomputable section

namespace Cert.KernelIdeal.RowsValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The feature matrix as the region finds it, by coordinates. -/
abbrev feat (c : Dev nD) : Fin 8192 → Fin 1024 → EReal := fun i d => (V c main_arg0 : S8192x1024.Idx → EReal) (ix2 i d)

/-- The two zero offsets, as a constant function. -/
theorem hz : (![0, 0] : Fin 2 → Nat) = fun _ => 0 := funext fun a => by fin_cases a <;> rfl

/-- The body's one store covers the buffer, so the buffer ends at the stored value. -/
theorem outBlock_eq (x0 : Vec Ideal S1024x1024 .f32) : Rows.outBlock x0 = k0_pay1 x0 := by
  unfold Rows.outBlock
  rw [View.canon_unit_zero hz, View.ld_unit_zero (S := S1024x1024) hz]

/-- The input block at point t, entry (r, d), is the feature matrix at row 1024 t + r, column d. -/
theorem blk_apply (c : Dev nD) (t : Fin cfg0.N) (r d : Fin 1024) (i : Fin 8192) (hi : i.val = 1024 * t.val + r.val) :
    (Rows.blk V c 0 t : Vec Ideal S1024x1024 .f32) (ix2 r d) = (V c main_arg0 : S8192x1024.Idx → EReal) (ix2 i d) := by
  have hx : win0_0.index t 0 = t.val ∧ win0_0.index t 1 = 0 := by
    rcases fin_N0 t with rfl | rfl | rfl | rfl | rfl | rfl | rfl | rfl <;> decide
  unfold Rows.blk
  rw [View.read_apply]
  show V c main_arg0 _ = V c main_arg0 _
  congr 1
  funext a
  apply Fin.ext
  match a with
  | ⟨0, _⟩ => show win0_0.index t 0 * 1024 + 1 * r.val = i.val; rw [hx.1, hi]; omega
  | ⟨1, _⟩ => show win0_0.index t 1 * 1024 + 1 * d.val = d.val; rw [hx.2]; omega

/-- What the body leaves at point t, entry (r, d): entry d of the unit row of row 1024 t + r. -/
theorem out_apply (c : Dev nD) (t : Fin cfg0.N) (r d : Fin 1024) (i : Fin 8192) (hi : i.val = 1024 * t.val + r.val) :
    (Rows.outBlock (Rows.blk V c 0 t) : Vec Ideal S1024x1024 .bf16) (ix2 r d) = Cert.Spec.unitRow (feat V c) i d := by
  rw [outBlock_eq]
  refine (PayloadReads.pay_unit _ r d).trans ?_
  unfold Cert.Spec.unitRow Cert.Spec.rowNorm
  rw [blk_apply V c t r d i hi]
  refine congrArg (fun s => Ideal.div _ (max (Ideal.sqrt s) Cert.Spec.eps)) ?_
  refine Finset.sum_congr rfl fun k _ => ?_
  rw [blk_apply V c t r k i hi]

/-- The whole output array the region leaves: the unit rows. -/
abbrev G (c : Dev nD) : Buf (Elt Ideal) ((cfg0.win 1).arr.view.loc (c.tc : Thread nD τ)) :=
  fun j => Cert.Spec.unitRow (feat V c) (j 0) (j 1)

/-- The output window's block index at point t: block row t, block column 0. -/
theorem index_out (t : Fin cfg0.N) : win0_1.index t 0 = t.val ∧ win0_1.index t 1 = 0 := by
  rcases fin_N0 t with rfl | rfl | rfl | rfl | rfl | rfl | rfl | rfl <;> decide

/-- What point t writes back is its block of the unit rows. -/
theorem flushed_eq (c : Dev nD) (t : Fin cfg0.N) (hf : (cfg0.win 1).flush t = true) :
    (Rows.dat (F := Ideal) V c).flushed 1 t = ((cfg0.win 1).blk t).view.read (Elt Ideal) (G V c) := by
  have hx := index_out t
  funext y
  obtain ⟨r, d, rfl⟩ : ∃ r d : Fin 1024, y = (ix2 r d : S1024x1024.Idx) := ⟨y 0, y 1, eq_ix2 (n0 := 1024) (n1 := 1024) y⟩
  have ht : t.val < 8 := lt_of_lt_of_eq t.isLt N_0
  have hi : 1024 * t.val + r.val < 8192 := by have := r.isLt; omega
  refine Eq.trans (b := Cert.Spec.unitRow (feat V c) ⟨1024 * t.val + r.val, hi⟩ d) ?_ ?_
  · show (Rows.dat (F := Ideal) V c).after 1 t (ix2 r d) = _
    rw [Rows.after_out]
    exact out_apply V c t r d _ rfl
  · rw [View.read_apply]
    show _ = Cert.Spec.unitRow (feat V c) _ _
    refine congrArg₂ (Cert.Spec.unitRow (feat V c)) (Fin.ext ?_) (Fin.ext ?_)
    · show 1024 * t.val + r.val = win0_1.index t 0 * 1024 + 1 * r.val; rw [hx.1]; omega
    · show d.val = win0_1.index t 1 * 1024 + 1 * d.val; rw [hx.2]; omega

/-- Row i lies in the block of point i / 1024: the eight blocks cover the array. -/
theorem rows_cover (c : Dev nD) (i : ((cfg0.win 1).arr.view.loc (c.tc : Thread nD τ)).2.ty.Idx) :
    ∃ t : Fin cfg0.N, (cfg0.win 1).flush t = true ∧ i ∈ ((cfg0.win 1).blk t).view.set := by
  have h0 : (i 0 : Nat) < 8192 := (i 0).isLt
  have h1 : (i 1 : Nat) < 1024 := (i 1).isLt
  obtain ⟨t, ht⟩ : ∃ t : Fin cfg0.N, t.val = (i 0 : Nat) / 1024 :=
    ⟨⟨(i 0 : Nat) / 1024, lt_of_lt_of_eq (by omega : (i 0 : Nat) / 1024 < 8) N_0.symm⟩, rfl⟩
  have hx := index_out t
  refine ⟨t, flush0_1 t, ?_⟩
  show i ∈ ((View.whole main_v24).slice (win0_1.rect t)).set
  rw [View.set_slice_whole, Rect.mem_set_unit]
  intro a
  match a with
  | ⟨0, _⟩ =>
    show win0_1.index t 0 * 1024 ≤ (i 0 : Nat) ∧ (i 0 : Nat) < win0_1.index t 0 * 1024 + 1024
    rw [hx.1, ht]; omega
  | ⟨1, _⟩ =>
    show win0_1.index t 1 * 1024 ≤ (i 1 : Nat) ∧ (i 1 : Nat) < win0_1.index t 1 * 1024 + 1024
    rw [hx.2]; omega

/-- After the region the output array holds the unit rows. -/
theorem rows_final (c : Dev nD) (i : Fin 8192) (d : Fin 1024) :
    ((Rows.dat (F := Ideal) V c).arrAt 1 cfg0.N : S8192x1024.Idx → EReal) (ix2 i d) = Cert.Spec.unitRow (feat V c) i d :=
  congrFun ((Rows.dat (F := Ideal) V c).arrAt_eq_of_cover 1 (G V c) (flushed_eq V c) (rows_cover c)) (ix2 i d)

end Cert.KernelIdeal.RowsValue

end
-- ==== Proof.SpecBlocks.lean ====
/-
  The pair contributions as the second kernel region sees them: from the unit rows, the labels read as a column and as a
  row, and the class sizes, each an array of its own. With the unit rows of a feature matrix and one label vector in both
  places these are the specification's quantities, by definition.
-/
import proofs.«131435_j72533407695362_1_alg».proof.Proof.Spec

noncomputable section

namespace Cert.Spec

open Idealize.ShloMosaic

variable (u : Fin 8192 → Fin 1024 → EReal) (labR labC : Fin 8192 → BitVec 32) (ni : Fin 8192 → EReal)

/-- The inner product of rows i and j. -/
def simOf (i j : Fin 8192) : EReal := ∑ d : Fin 1024, u i d * u j d
/-- What the pair (i, j) contributes. -/
def contribOf (i j : Fin 8192) : EReal :=
  Ideal.div (if labR i = labC j ∧ i ≠ j then simOf u i j * simOf u i j else 0) (ni i * k1024)
/-- The contributions of the pairs in block (I, J). -/
def blockSumOf (I J : Fin 8) : EReal :=
  ∑ r : Fin 1024, ∑ q : Fin 1024, contribOf u labR labC ni (inBlock I r) (inBlock J q)

theorem sim_eq (x : Fin 8192 → Fin 1024 → EReal) (i j : Fin 8192) : sim x i j = simOf (unitRow x) i j := rfl
theorem contrib_eq (x : Fin 8192 → Fin 1024 → EReal) (lab : Fin 8192 → BitVec 32) (i j : Fin 8192) :
    contrib x lab ni i j = contribOf (unitRow x) lab lab ni i j := rfl
theorem blockSum_eq (x : Fin 8192 → Fin 1024 → EReal) (lab : Fin 8192 → BitVec 32) (I J : Fin 8) :
    blockSum x lab ni I J = blockSumOf (unitRow x) lab lab ni I J := rfl

end Cert.Spec

end
-- ==== Proof.KernelIdeal.PairBlocks.lean ====
/-
  The second kernel region's block sum at a grid point is the specification's block sum, on the extended reals.

  Point t of the 8 x 8 grid is (t / 8, t % 8) = (I, J). Its five input windows cut, out of the four arrays the region
  finds, the rows 1024 I … 1024 I + 1023 of the unit rows, the rows 1024 J … 1024 J + 1023 of the unit rows, the
  same rows I of the label column, the columns J of the label row, and the rows I of the class sizes: each window's
  index map is read off over the 64 points, and a block's coordinate is the index times the block's extent plus the
  coordinate inside the block. With the blocks read this way, the body's row sums at the point are, term by term, the
  contributions of the pairs (sample r of block I, sample q of block J): equal labels, distinct sample numbers, the
  squared inner product of the two unit rows over the class size times the row length.
-/
import proofs.«131435_j72533407695362_1_alg».proof.Proof.KernelIdeal.PairData
import proofs.«131435_j72533407695362_1_alg».proof.Proof.PayloadReads
import proofs.«131435_j72533407695362_1_alg».proof.Proof.SpecBlocks
import Idealize.ShloMosaic.Lib.Pipeline.Value
import Idealize.ShloMosaic.Lib.ValueIdx
import Idealize.ShloMosaic.Lib.Tactic

set_option maxRecDepth 16384

noncomputable section

namespace Cert.KernelIdeal.PairBlocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's four arrays as it finds them, by coordinates: the unit rows, the labels as a column and as a row, the class sizes. -/
abbrev unitRows (c : Dev nD) : Fin 8192 → Fin 1024 → EReal := fun i d => (V c main_v24 : S8192x1024.Idx → EReal) (ix2 i d)
abbrev labCol (c : Dev nD) : Fin 8192 → BitVec 32 := fun i => (V c main_v21 : S8192x1.Idx → BitVec 32) (ix2 i 0)
abbrev labRow (c : Dev nD) : Fin 8192 → BitVec 32 := fun j => (V c main_v22 : S1x8192.Idx → BitVec 32) (ix2 0 j)
abbrev sizes (c : Dev nD) : Fin 8192 → EReal := fun i => (V c main_v23 : S8192x1.Idx → EReal) (ix2 i 0)

/-- Point t of the 8 x 8 grid is (t / 8, t % 8). -/
theorem coords_eq (t : Fin cfg1.N) : ((grid1.coords t) 0).val = t.val / 8 ∧ ((grid1.coords t) 1).val = t.val % 8 :=
  (by decide +kernel : ∀ t : Fin grid1.N, ((grid1.coords t) 0).val = t.val / 8 ∧ ((grid1.coords t) 1).val = t.val % 8) t

/-! ## The windows' index maps over the grid -/

/-- The first row-block window is at block row t / 8, block column 0. -/
theorem idx0 : ∀ t : Fin cfg1.N, win1_0.index t 0 = t.val / 8 ∧ win1_0.index t 1 = 0 :=
  (by decide +kernel : ∀ t : Fin grid1.N, win1_0.index t 0 = t.val / 8 ∧ win1_0.index t 1 = 0)
/-- The second row-block window is at block row t % 8, block column 0. -/
theorem idx1 : ∀ t : Fin cfg1.N, win1_1.index t 0 = t.val % 8 ∧ win1_1.index t 1 = 0 :=
  (by decide +kernel : ∀ t : Fin grid1.N, win1_1.index t 0 = t.val % 8 ∧ win1_1.index t 1 = 0)
/-- The label column's window is at block row t / 8. -/
theorem idx2 : ∀ t : Fin cfg1.N, win1_2.index t 0 = t.val / 8 ∧ win1_2.index t 1 = 0 :=
  (by decide +kernel : ∀ t : Fin grid1.N, win1_2.index t 0 = t.val / 8 ∧ win1_2.index t 1 = 0)
/-- The label row's window is at block column t % 8. -/
theorem idx3 : ∀ t : Fin cfg1.N, win1_3.index t 0 = 0 ∧ win1_3.index t 1 = t.val % 8 :=
  (by decide +kernel : ∀ t : Fin grid1.N, win1_3.index t 0 = 0 ∧ win1_3.index t 1 = t.val % 8)
/-- The class sizes' window is at block row t / 8. -/
theorem idx4 : ∀ t : Fin cfg1.N, win1_4.index t 0 = t.val / 8 ∧ win1_4.index t 1 = 0 :=
  (by decide +kernel : ∀ t : Fin grid1.N, win1_4.index t 0 = t.val / 8 ∧ win1_4.index t 1 = 0)

/-! ## The five blocks as rows of their arrays -/

/-- The first row block at (r, d): the unit rows' entry d of sample r of row block t / 8. -/
theorem blk0_apply (c : Dev nD) (t : Fin cfg1.N) (I : Fin 8) (hI : I.val = t.val / 8) (r d : Fin 1024) :
    (Pairs.blk V c 0 t : Vec Ideal S1024x1024 .bf16) (ix2 r d) = unitRows V c (Cert.Spec.inBlock I r) d := by
  unfold Pairs.blk
  rw [View.read_apply]
  show (V c main_v24 : S8192x1024.Idx → EReal) _ = (V c main_v24 : S8192x1024.Idx → EReal) (ix2 (Cert.Spec.inBlock I r) d)
  refine congrArg _ ?_
  funext a
  apply Fin.ext
  match a with
  | ⟨0, _⟩ => show win1_0.index t 0 * 1024 + 1 * r.val = I.val * 1024 + r.val; rw [(idx0 t).1, hI]; omega
  | ⟨1, _⟩ => show win1_0.index t 1 * 1024 + 1 * d.val = d.val; rw [(idx0 t).2]; omega

/-- The second row block at (q, d): the unit rows' entry d of sample q of row block t % 8. -/
theorem blk1_apply (c : Dev nD) (t : Fin cfg1.N) (J : Fin 8) (hJ : J.val = t.val % 8) (q d : Fin 1024) :
    (Pairs.blk V c 1 t : Vec Ideal S1024x1024 .bf16) (ix2 q d) = unitRows V c (Cert.Spec.inBlock J q) d := by
  unfold Pairs.blk
  rw [View.read_apply]
  show (V c main_v24 : S8192x1024.Idx → EReal) _ = (V c main_v24 : S8192x1024.Idx → EReal) (ix2 (Cert.Spec.inBlock J q) d)
  refine congrArg _ ?_
  funext a
  apply Fin.ext
  match a with
  | ⟨0, _⟩ => show win1_1.index t 0 * 1024 + 1 * q.val = J.val * 1024 + q.val; rw [(idx1 t).1, hJ]; omega
  | ⟨1, _⟩ => show win1_1.index t 1 * 1024 + 1 * d.val = d.val; rw [(idx1 t).2]; omega

/-- The label column's block at (r, 0): the label of sample r of row block t / 8. -/
theorem blk2_apply (c : Dev nD) (t : Fin cfg1.N) (I : Fin 8) (hI : I.val = t.val / 8) (r : Fin 1024) :
    (Pairs.blk V c 2 t : Vec Ideal S1024x1 .i32) (ix2 r 0) = labCol V c (Cert.Spec.inBlock I r) := by
  unfold Pairs.blk
  rw [View.read_apply]
  show (V c main_v21 : S8192x1.Idx → BitVec 32) _ = (V c main_v21 : S8192x1.Idx → BitVec 32) (ix2 (Cert.Spec.inBlock I r) 0)
  refine congrArg _ ?_
  funext a
  apply Fin.ext
  match a with
  | ⟨0, _⟩ => show win1_2.index t 0 * 1024 + 1 * r.val = I.val * 1024 + r.val; rw [(idx2 t).1, hI]; omega
  | ⟨1, _⟩ => show win1_2.index t 1 * 1 + 1 * 0 = 0; rw [(idx2 t).2]

/-- The label row's block at (0, q): the label of sample q of row block t % 8. -/
theorem blk3_apply (c : Dev nD) (t : Fin cfg1.N) (J : Fin 8) (hJ : J.val = t.val % 8) (q : Fin 1024) :
    (Pairs.blk V c 3 t : Vec Ideal S1x1024 .i32) (ix2 0 q) = labRow V c (Cert.Spec.inBlock J q) := by
  unfold Pairs.blk
  rw [View.read_apply]
  show (V c main_v22 : S1x8192.Idx → BitVec 32) _ = (V c main_v22 : S1x8192.Idx → BitVec 32) (ix2 0 (Cert.Spec.inBlock J q))
  refine congrArg _ ?_
  funext a
  apply Fin.ext
  match a with
  | ⟨0, _⟩ => show win1_3.index t 0 * 1 + 1 * 0 = 0; rw [(idx3 t).1]
  | ⟨1, _⟩ => show win1_3.index t 1 * 1024 + 1 * q.val = J.val * 1024 + q.val; rw [(idx3 t).2, hJ]; omega

/-- The class sizes' block at (r, 0): the class size of sample r of row block t / 8. -/
theorem blk4_apply (c : Dev nD) (t : Fin cfg1.N) (I : Fin 8) (hI : I.val = t.val / 8) (r : Fin 1024) :
    (Pairs.blk V c 4 t : Vec Ideal S1024x1 .f32) (ix2 r 0) = sizes V c (Cert.Spec.inBlock I r) := by
  unfold Pairs.blk
  rw [View.read_apply]
  show (V c main_v23 : S8192x1.Idx → EReal) _ = (V c main_v23 : S8192x1.Idx → EReal) (ix2 (Cert.Spec.inBlock I r) 0)
  refine congrArg _ ?_
  funext a
  apply Fin.ext
  match a with
  | ⟨0, _⟩ => show win1_4.index t 0 * 1024 + 1 * r.val = I.val * 1024 + r.val; rw [(idx4 t).1, hI]; omega
  | ⟨1, _⟩ => show win1_4.index t 1 * 1 + 1 * 0 = 0; rw [(idx4 t).2]

/-! ## The block's sum -/

/-- Two samples of blocks I and J are distinct exactly when their sample numbers differ. -/
theorem inBlock_ne_iff (I J : Fin 8) (r q : Fin 1024) :
    I.val * 1024 + r.val ≠ J.val * 1024 + q.val ↔ Cert.Spec.inBlock I r ≠ Cert.Spec.inBlock J q :=
  not_congr (Fin.ext_iff (a := Cert.Spec.inBlock I r) (b := Cert.Spec.inBlock J q)).symm

/-- The block's row sums, summed, are the specification's block sum. -/
theorem blockSum_read (c : Dev nD) (t : Fin cfg1.N) (I J : Fin 8) (hI : I.val = t.val / 8) (hJ : J.val = t.val % 8) :
    ∑ r : Fin 1024, (k1_pay4 (F := Ideal) (grid1.coords t) (Pairs.blk V c 0 t) (Pairs.blk V c 1 t) (Pairs.blk V c 2 t) (Pairs.blk V c 3 t) (Pairs.blk V c 4 t)) (ix1 r)
      = Cert.Spec.blockSumOf (unitRows V c) (labCol V c) (labRow V c) (sizes V c) I J := by
  obtain ⟨h0, h1⟩ := coords_eq t
  unfold Cert.Spec.blockSumOf
  refine Finset.sum_congr rfl fun r _ => ?_
  refine (PayloadReads.pay_rowsum (grid1.coords t) _ _ _ _ _ r).trans ?_
  refine Finset.sum_congr rfl fun q _ => ?_
  unfold Cert.Spec.contribOf Cert.Spec.simOf
  have hs := fun d : Fin 1024 =>
    congrArg₂ (fun a b : EReal => a * b) (blk0_apply V c t I hI r d) (blk1_apply V c t J hJ q d)
  refine congrArg₂ Ideal.div ?_ (congrArg (· * Cert.Spec.k1024) (blk4_apply V c t I hI r))
  refine if_congr (and_congr (Eq.congr (blk2_apply V c t I hI r) (blk3_apply V c t J hJ q)) ?_)
    (congrArg₂ (fun a b : EReal => a * b) (Finset.sum_congr rfl fun d _ => hs d) (Finset.sum_congr rfl fun d _ => hs d)) rfl
  rw [h0, h1, ← hI, ← hJ]
  exact inBlock_ne_iff I J r q

end Cert.KernelIdeal.PairBlocks

end
-- ==== Proof.KernelIdeal.PairCases.lean ====
/-
  What each control case of the second kernel region's body leaves in the accumulator and in the output buffer,
  as terms of the body's payloads.

  At point t of the 8 x 8 grid the body forms the block's row sums from the five input blocks; the accumulator then
  receives its former entry plus the sum of the row sums. When j = 0 the former entry is the zero just stored; when
  j = 7 the output block is filled with the accumulator's new entry. Each written buffer is covered by whole-buffer
  stores, so what it holds afterwards is the last store's payload, and a load that follows a whole-buffer store reads
  that store's payload back.
-/
import proofs.«131435_j72533407695362_1_alg».proof.Proof.KernelIdeal.PairData
import Idealize.ShloMosaic.Lib.Pipeline.Value
import Idealize.ShloMosaic.Lib.Tactic

set_option maxRecDepth 16384

noncomputable section

namespace Cert.KernelIdeal.PairCases

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (V : (c : Dev nD) → (b : Ref sig .tc) → Buf (Elt F) ((c : Thread nD τ).loc b))

/-- The zero offsets of a rank-2 buffer, as a constant function. -/
theorem hz2 : (![0, 0] : Fin 2 → Nat) = fun _ => 0 := funext fun a => by fin_cases a <;> rfl
/-- The zero offsets of a rank-3 buffer, as a constant function. -/
theorem hz3 : (![0, 0, 0] : Fin 3 → Nat) = fun _ => 0 := funext fun a => by fin_cases a <;> rfl

/-- The block's row sums at point t: the body's fourth payload of the five input blocks. -/
def rowSums (c : Dev nD) (t : Fin cfg1.N) : FVec F S1024 .f32 :=
  k1_pay4 (grid1.coords t) (Pairs.blk V c 0 t) (Pairs.blk V c 1 t) (Pairs.blk V c 2 t) (Pairs.blk V c 3 t) (Pairs.blk V c 4 t)

/-- j = 0: two whole-buffer stores, the zero first; the last one wins, and the load between them reads the zero
    back, so the accumulator ends at zero plus the sum of the block's row sums. -/
theorem accFirst_eq (c : Dev nD) (t : Fin cfg1.N) (h0 : t.val % 8 = 0) :
    Pairs.accFirstAt V c t h0 = k1_pay1 (rowSums V c t) (k1_pay3 (F := F)) := by
  unfold Pairs.accFirstAt
  rw [View.read_writes_eq_canon _ _ _ (Pairs.coverFirstAt V c t h0)]
  unfold Pairs.runFirst
  dsimp only
  try sl_unfold_words
  rw [View.canon_cons_unit_zero hz2, View.readCov_unit_zero (S := S1x1) _ hz2]
  unfold rowSums
  simp only [View.readAt_eq_ld, (Pairs.hs0 t).read_unread, (Pairs.hs1 t).read_unread, (Pairs.hs2 t).read_unread,
    (Pairs.hs3 t).read_unread, (Pairs.hs4 t).read_unread, (Memref.isWhole_whole cc1_scratch0).read_unread,
    View.ld_unit_zero (S := S1024x1024) hz2, View.ld_unit_zero (S := S1024x1) hz2, View.ld_unit_zero (S := S1x1024) hz2,
    View.ld_unit_zero (S := S1x1) hz2, shapeCast_self]

/-- 0 < j < 7: the one whole-buffer store leaves the former entry plus the sum of the block's row sums. -/
theorem accMid_eq (c : Dev nD) (t : Fin cfg1.N) (h0 : ¬t.val % 8 = 0) (h7 : ¬t.val % 8 = 7) (xs : Vec F S1x1 .f32) :
    Pairs.accMidAt V c t h0 h7 xs = k1_pay1 (rowSums V c t) xs := by
  unfold Pairs.accMidAt
  rw [View.read_writes_eq_canon _ _ _ (Pairs.coverMidAt V c t h0 h7 xs)]
  unfold Pairs.runMid
  dsimp only
  try sl_unfold_words
  rw [View.canon_unit_zero hz2]
  unfold rowSums
  simp only [View.readAt_eq_ld, (Pairs.hs0 t).read_unread, (Pairs.hs1 t).read_unread, (Pairs.hs2 t).read_unread,
    (Pairs.hs3 t).read_unread, (Pairs.hs4 t).read_unread, (Memref.isWhole_whole cc1_scratch0).read_unread,
    View.ld_unit_zero (S := S1024x1024) hz2, View.ld_unit_zero (S := S1024x1) hz2, View.ld_unit_zero (S := S1x1024) hz2,
    View.ld_unit_zero (S := S1x1) hz2, shapeCast_self]

/-- j = 7, the accumulator: again one whole-buffer store of the former entry plus the sum of the block's row sums. -/
theorem accLast_eq (c : Dev nD) (t : Fin cfg1.N) (h0 : ¬t.val % 8 = 0) (h7 : t.val % 8 = 7) (xs : Vec F S1x1 .f32) :
    Pairs.accLastAt V c t h0 h7 xs = k1_pay1 (rowSums V c t) xs := by
  unfold Pairs.accLastAt
  rw [View.read_writes_eq_canon _ _ _ (Pairs.coverLastAccAt V c t h0 h7 xs)]
  unfold Pairs.runLast
  dsimp only
  try sl_unfold_words
  rw [View.canon_unit_zero hz2]
  unfold rowSums
  simp only [View.readAt_eq_ld, (Pairs.hs0 t).read_unread, (Pairs.hs1 t).read_unread, (Pairs.hs2 t).read_unread,
    (Pairs.hs3 t).read_unread, (Pairs.hs4 t).read_unread, (Memref.isWhole_whole cc1_scratch0).read_unread,
    View.ld_unit_zero (S := S1024x1024) hz2, View.ld_unit_zero (S := S1024x1) hz2, View.ld_unit_zero (S := S1x1024) hz2,
    View.ld_unit_zero (S := S1x1) hz2, shapeCast_self]

/-- j = 7, the output buffer: the one whole-buffer store broadcasts the entry read back from the accumulator, and
    that load, through the accumulator's whole rectangle after its one store, reads the store's payload. -/
theorem outLast_eq (c : Dev nD) (t : Fin cfg1.N) (h0 : ¬t.val % 8 = 0) (h7 : t.val % 8 = 7) (xs : Vec F S1x1 .f32) :
    Pairs.outLastAt V c t h0 h7 xs = k1_pay2 (k1_pay1 (rowSums V c t) xs) := by
  unfold Pairs.outLastAt
  rw [View.read_writes_eq_canon _ _ _ (Pairs.coverLastOutAt V c t h0 h7 xs)]
  unfold Pairs.runLast
  dsimp only
  try sl_unfold_words
  rw [View.canon_unit_zero hz3, View.readCov_unit_zero (S := S1x1) _ hz2]
  unfold rowSums
  simp only [View.readAt_eq_ld, (Pairs.hs0 t).read_unread, (Pairs.hs1 t).read_unread, (Pairs.hs2 t).read_unread,
    (Pairs.hs3 t).read_unread, (Pairs.hs4 t).read_unread, (Memref.isWhole_whole cc1_scratch0).read_unread,
    View.ld_unit_zero (S := S1024x1024) hz2, View.ld_unit_zero (S := S1024x1) hz2, View.ld_unit_zero (S := S1x1024) hz2,
    View.ld_unit_zero (S := S1x1) hz2, shapeCast_self]

end Cert.KernelIdeal.PairCases

end
-- ==== Proof.KernelIdeal.PairsValue.lean ====
/-
  What the second kernel region leaves in its output array, on the extended reals.

  Point t = 8 i + j of the 8 x 8 grid adds the sum of block (i, j)'s contributions to a one-entry accumulator that is
  reset at j = 0; so after point t the accumulator's entry is the sum of the block sums of row block i over the column
  blocks 0, ..., j. At j = 7 the output's staging buffer is filled with that entry, now the sum over all eight column
  blocks, and written back to block i of the output array. The eight written blocks cover the array, so every entry of
  block i of the output array ends at the sum of row block i's eight block sums.
-/
import proofs.«131435_j72533407695362_1_alg».proof.Proof.KernelIdeal.PairCases
import proofs.«131435_j72533407695362_1_alg».proof.Proof.KernelIdeal.PairBlocks
import proofs.«131435_j72533407695362_1_alg».proof.Proof.PayloadReads
import proofs.«131435_j72533407695362_1_alg».proof.Proof.SpecBlocks
import Idealize.ShloMosaic.Lib.Pipeline.Value
import Idealize.ShloMosaic.Lib.ValueIdx
import Idealize.ShloMosaic.Lib.Tactic

set_option maxRecDepth 16384

noncomputable section

namespace Cert.KernelIdeal.PairsValue

open Cert.KernelIdeal Cert.KernelIdeal.Gen Cert.KernelIdeal.PairBlocks
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The block sums over the naturals -/

/-- The block sums as a function of two naturals, zero outside the 8 x 8 blocks. -/
def B (c : Dev nD) (I J : ℕ) : EReal :=
  if h : I < 8 ∧ J < 8 then Cert.Spec.blockSumOf (unitRows V c) (labCol V c) (labRow V c) (sizes V c) ⟨I, h.1⟩ ⟨J, h.2⟩ else 0

theorem B_of_lt (c : Dev nD) (I J : Fin 8) :
    B V c I.val J.val = Cert.Spec.blockSumOf (unitRows V c) (labCol V c) (labRow V c) (sizes V c) I J := by
  unfold B
  rw [dif_pos ⟨I.isLt, J.isLt⟩]

/-- The row sums of the block at point t add up to the block sum of (t / 8, t % 8). -/
theorem rowSums_sum (c : Dev nD) (t : Fin cfg1.N) :
    ∑ r : Fin 1024, PairCases.rowSums V c t (ix1 r) = B V c (t.val / 8) (t.val % 8) := by
  have hN : t.val < 64 := lt_of_lt_of_eq t.isLt (show cfg1.N = 64 from N_1)
  have hI : t.val / 8 < 8 := by omega
  have hJ : t.val % 8 < 8 := by omega
  unfold PairCases.rowSums
  refine (blockSum_read V c t ⟨t.val / 8, hI⟩ ⟨t.val % 8, hJ⟩ rfl rfl).trans ?_
  exact (B_of_lt V c ⟨t.val / 8, hI⟩ ⟨t.val % 8, hJ⟩).symm

/-! ## The accumulator's entry, point by point -/

/-- At a point with j = 0 the accumulator is reset and receives the block's sum. -/
theorem acc_first (c : Dev nD) (n : ℕ) (hn : n < cfg1.N) (h0 : n % 8 = 0) :
    Pairs.accAt V c n hn (ix2 0 0) = B V c (n / 8) 0 := by
  refine (congrFun (Pairs.accAt_first V c ⟨n, hn⟩ h0) _).trans ?_
  refine (congrFun (PairCases.accFirst_eq V c ⟨n, hn⟩ h0) _).trans ?_
  refine (PayloadReads.pay_acc _ _ _).trans ?_
  rw [PayloadReads.pay_zero, zero_add]
  refine (rowSums_sum V c ⟨n, hn⟩).trans ?_
  show B V c (n / 8) (n % 8) = _
  rw [h0]

/-- At a point with j > 0 the accumulator receives the block's sum on top of what the point before left. -/
theorem acc_step (c : Dev nD) (m : ℕ) (hn : m + 1 < cfg1.N) (h0 : ¬(m + 1) % 8 = 0) :
    Pairs.accAt V c (m + 1) hn (ix2 0 0)
      = Pairs.accAt V c m (Nat.lt_of_succ_lt hn) (ix2 0 0) + B V c ((m + 1) / 8) ((m + 1) % 8) := by
  by_cases h7 : (m + 1) % 8 = 7
  · refine (congrFun (Pairs.accAt_last V c ⟨m + 1, hn⟩ h0 h7) _).trans ?_
    refine (congrFun (PairCases.accLast_eq V c ⟨m + 1, hn⟩ h0 h7 _) _).trans ?_
    refine (PayloadReads.pay_acc _ _ _).trans ?_
    exact congrArg₂ (· + ·) rfl (rowSums_sum V c ⟨m + 1, hn⟩)
  · refine (congrFun (Pairs.accAt_mid V c ⟨m + 1, hn⟩ h0 h7) _).trans ?_
    refine (congrFun (PairCases.accMid_eq V c ⟨m + 1, hn⟩ h0 h7 _) _).trans ?_
    refine (PayloadReads.pay_acc _ _ _).trans ?_
    exact congrArg₂ (· + ·) rfl (rowSums_sum V c ⟨m + 1, hn⟩)

/-- After point n = 8 i + j the accumulator's entry is the sum of row block i's block sums over the column blocks
    0, ..., j. -/
theorem acc_entry (c : Dev nD) : ∀ (n : ℕ) (hn : n < cfg1.N),
    Pairs.accAt V c n hn (ix2 0 0) = ∑ J' ∈ Finset.range (n % 8 + 1), B V c (n / 8) J'
  | 0, hn => by
    rw [acc_first V c 0 hn (Nat.zero_mod 8)]
    exact (Finset.sum_range_one _).symm
  | m + 1, hn => by
    by_cases h0 : (m + 1) % 8 = 0
    · rw [acc_first V c (m + 1) hn h0, h0]
      exact (Finset.sum_range_one _).symm
    · have e1 : (m + 1) / 8 = m / 8 := by omega
      have e2 : (m + 1) % 8 = m % 8 + 1 := by omega
      rw [acc_step V c m hn h0, acc_entry c m (Nat.lt_of_succ_lt hn), e1, e2]
      exact (Finset.sum_range_succ _ _).symm

/-! ## The output's staging buffer at j = 7 -/

/-- At a point with j = 7 every entry of the output's staging buffer is the sum of row block i's eight block sums. -/
theorem out_entry (c : Dev nD) (t : Fin cfg1.N) (h7 : t.val % 8 = 7) (j : S1x8x128.Idx) :
    Pairs.outAt V c t j = ∑ J : Fin 8, B V c (t.val / 8) J.val := by
  have h0 : ¬t.val % 8 = 0 := by omega
  have e : Pairs.outAt V c t = k1_pay2 (Pairs.accAt V c t.val t.isLt) := by
    unfold Pairs.outAt
    rw [dif_pos h7, PairCases.outLast_eq, Pairs.accAt_last V c t h0 h7, PairCases.accLast_eq]
  rw [e]
  refine (PayloadReads.pay_out _ j).trans ?_
  rw [acc_entry V c t.val t.isLt, h7]
  exact (Fin.sum_univ_eq_sum_range (fun J => B V c (t.val / 8) J) 8).symm

/-! ## The write-backs and the whole array -/

/-- The output window's block index at point t: block t / 8 along the first axis, block 0 along the others. -/
theorem index_out : ∀ t : Fin cfg1.N, win1_5.index t 0 = t.val / 8 ∧ win1_5.index t 1 = 0 ∧ win1_5.index t 2 = 0 :=
  (by decide +kernel : ∀ t : Fin grid1.N, win1_5.index t 0 = t.val / 8 ∧ win1_5.index t 1 = 0 ∧ win1_5.index t 2 = 0)

/-- The array the region leaves: every entry of block i holds the sum of row block i's eight block sums. -/
def G (c : Dev nD) : Buf (Elt Ideal) ((c : Thread nD τ).loc main_v25) :=
  ((fun j : S8x8x128.Idx => ∑ J : Fin 8, B V c (j 0).val J.val) : S8x8x128.Idx → EReal)

/-- What a write-back writes is its block of that array. -/
theorem flushed_eq (c : Dev nD) (t : Fin cfg1.N) (hf : (cfg1.win 5).flush t = true) :
    (Pairs.dat V c).flushed 5 t = ((cfg1.win 5).blk t).view.read (Elt Ideal) (G V c) := by
  have h7 : t.val % 8 = 7 := (flush1_5 t).mp hf
  show (cfg1.win 5).cut (grid1.coords t) ((Pairs.dat V c).after 5 t) = _
  rw [Pairs.after_out]
  funext y
  rw [View.read_apply]
  show Pairs.outAt V c t _ = G V c _
  rw [out_entry V c t h7]
  have e : ((((cfg1.win 5).blk t).view.emb y) 0 : ℕ) = t.val / 8 := by
    show win1_5.index t 0 * 1 + 1 * (y 0 : ℕ) = t.val / 8
    have hy : (y 0 : ℕ) < 1 := (y 0).isLt
    rw [(index_out t).1]
    omega
  show _ = ∑ J : Fin 8, B V c ((((cfg1.win 5).blk t).view.emb y) 0 : ℕ) J.val
  rw [e]

/-- Every index of the output array lies in the block written back at the last point of its row block. -/
theorem cover (c : Dev nD) (i : ((cfg1.win 5).arr.view.loc (c.tc : Thread nD τ)).2.ty.Idx) :
    ∃ t : Fin cfg1.N, (cfg1.win 5).flush t = true ∧ i ∈ ((cfg1.win 5).blk t).view.set := by
  have h0 : (i 0 : ℕ) < 8 := (i 0).isLt
  have h1 : (i 1 : ℕ) < 8 := (i 1).isLt
  have h2 : (i 2 : ℕ) < 128 := (i 2).isLt
  have hN : cfg1.N = 64 := N_1
  let t : Fin cfg1.N := ⟨8 * (i 0 : ℕ) + 7, by omega⟩
  have ht : t.val = 8 * (i 0 : ℕ) + 7 := rfl
  refine ⟨t, (flush1_5 t).mpr (by omega), ?_⟩
  show i ∈ ((View.whole main_v25).slice (win1_5.rect t)).set
  rw [View.set_slice_whole, Rect.mem_set_unit]
  intro a
  match a with
  | ⟨0, _⟩ =>
    show win1_5.index t 0 * 1 ≤ (i 0 : ℕ) ∧ (i 0 : ℕ) < win1_5.index t 0 * 1 + 1
    rw [(index_out t).1]; omega
  | ⟨1, _⟩ =>
    show win1_5.index t 1 * 8 ≤ (i 1 : ℕ) ∧ (i 1 : ℕ) < win1_5.index t 1 * 8 + 8
    rw [(index_out t).2.1]; omega
  | ⟨2, _⟩ =>
    show win1_5.index t 2 * 128 ≤ (i 2 : ℕ) ∧ (i 2 : ℕ) < win1_5.index t 2 * 128 + 128
    rw [(index_out t).2.2]; omega

/-- After the region, every entry of block I of the output array is the sum of row block I's eight block sums. -/
theorem pairs_final (c : Dev nD) (I a : Fin 8) (b : Fin 128) :
    ((Pairs.dat (F := Ideal) V c).arrAt 5 cfg1.N : S8x8x128.Idx → EReal) (ix3 I a b)
      = ∑ J : Fin 8, Cert.Spec.blockSumOf (unitRows V c) (labCol V c) (labRow V c) (sizes V c) I J := by
  rw [(Pairs.dat V c).arrAt_eq_of_cover 5 (G V c) (flushed_eq V c) (cover c)]
  show ∑ J : Fin 8, B V c I.val J.val = _
  exact Finset.sum_congr rfl fun J _ => B_of_lt V c I J

end Cert.KernelIdeal.PairsValue

end
-- ==== Proof.KernelIdeal.HostReads.lean ====
/-
  What the host operations before and after the two kernel regions leave, read at the ideal values.

  Before the regions the host lays the labels in a column and in a row, computes every sample's class size (a gather
  from the scatter-added class histogram) as a column, and the number of classes present; it writes nothing to the
  feature matrix. After the regions it cuts the entries (k, 0, 0) of the eight row blocks out of the block-sum array,
  sums them from zero, and divides by the class count.
-/
import proofs.«131435_j72533407695362_1_alg».proof.Proof.KernelIdeal.Whole
import proofs.«131435_j72533407695362_1_alg».proof.Proof.RefIsSpec
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
set_option maxRecDepth 16384

noncomputable section

namespace Cert.KernelIdeal.HostReads

open Cert.KernelIdeal Cert.KernelIdeal.Gen Cert.KernelIdeal.Whole
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The labels as launched, on core c. -/
abbrev labels (c : Dev nD) : (⟨S8192, .i32⟩ : BufTy).Contents (Elt Ideal) := m ((c : Thread nD τ).loc main_arg1)

/-! ## Small layout facts -/

/-- A sum over the indices of a vector shape is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A vector of length a cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1, 1] array cast to a vector of length a reads, at i, the array at (i, 0, 0). -/
theorem shapeCast_a11_a_apply {α : Type} {a : ℕ} (x : (⟨3, ![a, 1, 1]⟩ : Shape).Idx → α) (h : (⟨3, ![a, 1, 1]⟩ : Shape).ShapeCasts ⟨1, ![a]⟩)
    (i : Fin a) : shapeCast ⟨1, ![a]⟩ x h (ix1 i) = x (ix3 i (0 : Fin 1) (0 : Fin 1)) :=
  shapeCast_apply x h _ _ (by
    rw [Shape.rowMajor_val_three, Shape.rowMajor_val_one]
    show (i.val * 1 + 0) * 1 + 0 = i.val
    omega)

/-! ## After the regions -/

/-- The host's closing operations on any block-sum array A and any count D: the entries (k, 0, 0) are cut out, laid in a
    vector, summed from the zero word, and divided by the count. -/
theorem tail_val (A : S8x8x128.Idx → EReal) (D : S_.Idx → EReal) :
    Host.divf (F := Ideal) (φ := .f32)
        (Host.reduceAdd (F := Ideal) (φ := .f32)
          (shapeCast S8 (extractStridedSlice S8x1x1 ![0, 0, 0] A slices_S8x8x128_S8x1x1_0_0_0) shapeCasts_S8x1x1_S8)
          (constant (F := Ideal) S_ .f32 0x00000000#32) reducesTo_S8_S_d0 h_S_) D ix0
      = Ideal.div (∑ k : Fin 8, A (ix3 k 0 0)) (D ix0) := by
  show Ideal.div (Ideal.hostReduceAdd reducesTo_S8_S_d0
      (shapeCast S8 (extractStridedSlice S8x1x1 ![0, 0, 0] A slices_S8x8x128_S8x1x1_0_0_0) shapeCasts_S8x1x1_S8)
      (Ideal.ofBits .f32 0x00000000#32) ix0) (D ix0) = _
  rw [Ideal.hostReduceAdd_total reducesTo_S8_S_d0 (fun b => b.elim0), Ideal.ofBits_zero_f32, zero_add, sum_idx1]
  refine congrArg (fun z => Ideal.div z (D ix0)) (Finset.sum_congr rfl fun k _ => ?_)
  refine (shapeCast_a11_a_apply _ shapeCasts_S8x1x1_S8 k).trans ?_
  exact extractStridedSlice_apply _ _ slices_S8x8x128_S8x1x1_0_0_0 _ (ix3 k (0 : Fin 8) (0 : Fin 128)) (fun a => by
    match a with
    | ⟨0, _⟩ => show k.val = 0 + k.val; omega
    | ⟨1, _⟩ => rfl
    | ⟨2, _⟩ => rfl)

/-- After the region the result is the sum of the eight row blocks' entries over the class count. -/
theorem tail_read (c : Dev nD) :
    (W4 m ρ c (Proc.devRef .tc main_v29) : S_.Idx → EReal) ix0
      = Ideal.div (∑ k : Fin 8, (W3 m ρ c (Proc.devRef .tc main_v25) : S8x8x128.Idx → EReal) (ix3 k 0 0))
          ((W3 m ρ c (Proc.devRef .tc main_v13) : S_.Idx → EReal) ix0) := by
  dsimp only [W4]
  after_results
  generalize W3 m ρ c (Proc.devRef .tc main_v25) = A
  generalize W3 m ρ c (Proc.devRef .tc main_v13) = D
  exact tail_val A D

/-! ## Before the regions -/

/-- The labels as a column. -/
theorem head_labCol (c : Dev nD) (i : Fin 8192) : (W1 m ρ c (Proc.devRef .tc main_v21) : S8192x1.Idx → BitVec 32) (ix2 i 0) = (labels m c : S8192.Idx → BitVec 32) (ix1 i) := by
  dsimp only [W1]
  after_results
  exact shapeCast_a_a1_apply (labels m c : S8192.Idx → BitVec 32) shapeCasts_S8192_S8192x1 i 0

/-- The labels as a row. -/
theorem head_labRow (c : Dev nD) (j : Fin 8192) : (W1 m ρ c (Proc.devRef .tc main_v22) : S1x8192.Idx → BitVec 32) (ix2 0 j) = (labels m c : S8192.Idx → BitVec 32) (ix1 j) := by
  dsimp only [W1]
  after_results
  exact shapeCast_a_1a_apply (labels m c : S8192.Idx → BitVec 32) shapeCasts_S8192_S1x8192 0 j

set_option maxHeartbeats 4000000 in
/-- The class sizes as a column: the host gathers, for every sample, its class's entry of the scatter-added class
    histogram of the (wrapped) labels, operation for operation as the reference does, and lays the vector in a column. -/
theorem head_sizes (c : Dev nD) (i : Fin 8192) : (W1 m ρ c (Proc.devRef .tc main_v23) : S8192x1.Idx → EReal) (ix2 i 0) = Cert.RefIsSpec.ni (labels m c) i := by
  dsimp only [W1]
  after_results_simp
  refine (shapeCast_a_a1_apply _ shapeCasts_S8192_S8192x1 i 0).trans ?_
  unfold Cert.RefIsSpec.ni Cert.ReferenceIdeal.ReadP.val_main_v38 Cert.ReferenceIdeal.ReadP.val_main_v37 Cert.ReferenceIdeal.ReadP.val_main_v36
    Cert.ReferenceIdeal.ReadP.val_main_v35 Cert.ReferenceIdeal.ReadP.val_main_v34 Cert.ReferenceIdeal.ReadP.val_main_v33
    Cert.ReferenceIdeal.ReadP.val_main_v32 Cert.ReferenceIdeal.ReadP.val_main_v26
    Cert.ReferenceIdeal.ReadP.val_main_v25 Cert.ReferenceIdeal.ReadP.val_main_v24 Cert.ReferenceIdeal.ReadP.val_main_v23
    Cert.ReferenceIdeal.ReadP.val_main_v22 Cert.ReferenceIdeal.ReadP.val_main_v21 Cert.ReferenceIdeal.ReadP.val_main_v20
    Cert.ReferenceIdeal.ReadP.val_main_v19 Cert.ReferenceIdeal.ReadP.val_main_v18
    Cert.ReferenceIdeal.ReadP.val_main_cst_0 Cert.ReferenceIdeal.ReadP.val_main_c_1 Cert.ReferenceIdeal.ReadP.val_main_c_2
    Cert.ReferenceIdeal.ReadP.val_main_cst_3 Cert.ReferenceIdeal.ReadP.val_main_c_6 Cert.ReferenceIdeal.ReadP.val_main_c_7
  rfl

set_option maxHeartbeats 4000000 in
/-- The class count: the number of classes whose histogram entry is positive, as a float, operation for operation as the
    reference obtains it from the labels. -/
theorem head_count (c : Dev nD) : (W1 m ρ c (Proc.devRef .tc main_v13) : S_.Idx → EReal) ix0 = Cert.RefIsSpec.nu (labels m c) := by
  dsimp only [W1]
  after_results
  unfold Cert.RefIsSpec.nu Cert.ReferenceIdeal.ReadP.val_main_v31 Cert.ReferenceIdeal.ReadP.val_main_v30 Cert.ReferenceIdeal.ReadP.val_main_v29
    Cert.ReferenceIdeal.ReadP.val_main_v28 Cert.ReferenceIdeal.ReadP.val_main_v27 Cert.ReferenceIdeal.ReadP.val_main_v26
    Cert.ReferenceIdeal.ReadP.val_main_v25 Cert.ReferenceIdeal.ReadP.val_main_v24 Cert.ReferenceIdeal.ReadP.val_main_v23
    Cert.ReferenceIdeal.ReadP.val_main_v22 Cert.ReferenceIdeal.ReadP.val_main_v21 Cert.ReferenceIdeal.ReadP.val_main_v20
    Cert.ReferenceIdeal.ReadP.val_main_v19 Cert.ReferenceIdeal.ReadP.val_main_v18
    Cert.ReferenceIdeal.ReadP.val_main_cst_0 Cert.ReferenceIdeal.ReadP.val_main_c_1 Cert.ReferenceIdeal.ReadP.val_main_c_2
    Cert.ReferenceIdeal.ReadP.val_main_cst_3 Cert.ReferenceIdeal.ReadP.val_main_cst_4 Cert.ReferenceIdeal.ReadP.val_main_c_5
  rfl

/-- The feature matrix reaches the first region as launched: no host operation before it writes that buffer. -/
theorem head_features (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

end Cert.KernelIdeal.HostReads

end
-- ==== Proof.KernelIdeal.Result.lean ====
/-
  The idealized kernel's result is the specification's quantity.

  The host code after the second region takes entry (k, 0, 0) of each of the eight blocks of the region's output array,
  adds the eight numbers, and divides by the number of classes present. Entry (k, 0, 0) is the sum of row block k's
  eight block sums; the block sums are over the arrays the region was entered with, which are the unit rows of the
  launched feature matrix (what the first region left), the launched labels read as a column and as a row, and the
  class sizes. Regrouping the 8 x 8 block sums into the one sum over all pairs uses only that addition on the extended
  reals is commutative and associative, so the precondition is never opened.
-/
import proofs.«131435_j72533407695362_1_alg».proof.Proof.KernelIdeal.Whole
import proofs.«131435_j72533407695362_1_alg».proof.Proof.KernelIdeal.RowsValue
import proofs.«131435_j72533407695362_1_alg».proof.Proof.KernelIdeal.PairBlocks
import proofs.«131435_j72533407695362_1_alg».proof.Proof.KernelIdeal.PairsValue
import proofs.«131435_j72533407695362_1_alg».proof.Proof.KernelIdeal.HostReads
import proofs.«131435_j72533407695362_1_alg».proof.Proof.RefIsSpec
import proofs.«131435_j72533407695362_1_alg».proof.Proof.SpecBlocks
import Idealize.ShloMosaic.PureOps.Ideal
import Idealize.ShloMosaic.Lib.ValueIdx

noncomputable section

namespace Cert.KernelIdeal.Result

open Cert.KernelIdeal Cert.KernelIdeal.Gen Cert.KernelIdeal.Whole Cert.KernelIdeal.HostReads
open Idealize.ShloMosaic Idealize.ShloMosaic.TcCoe Idealize.ShloMosaic.ValueIdx Idealize.SL.Sem

variable (m : (ℓ : Loc nD τ sig) → Buf (Elt Ideal) ℓ) (ρ : Dev nD → PrngReg)

/-- The feature matrix and the labels as launched, by coordinates. -/
abbrev feats (c : Dev nD) : Fin 8192 → Fin 1024 → EReal := fun a d => (m ((c : Thread nD τ).loc main_arg0) : S8192x1024.Idx → EReal) (ix2 a d)
abbrev labs (c : Dev nD) : Fin 8192 → BitVec 32 := fun a => (labels m c : S8192.Idx → BitVec 32) (ix1 a)

/-- The second region is entered with the unit rows of the feature matrix in the normalized matrix's buffer, -/
theorem unitRows_eq (c : Dev nD) : PairBlocks.unitRows (V2 m ρ) c = Cert.Spec.unitRow (feats m c) := by
  funext i d
  show (W2 m ρ c (Proc.devRef .tc (Pipeline.arrRef spec0 1)) : S8192x1024.Idx → EReal) (ix2 i d) = _
  rw [W2_arr m ρ c 1, RowsValue.rows_final]
  show Cert.Spec.unitRow (fun a b => (W1 m ρ c (Proc.devRef .tc main_arg0) : S8192x1024.Idx → EReal) (ix2 a b)) i d = _
  rw [head_features]

/-- the labels as a column and as a row, -/
theorem labCol_eq (c : Dev nD) : PairBlocks.labCol (V2 m ρ) c = labs m c := by
  funext i
  show (W2 m ρ c (Proc.devRef .tc main_v21) : S8192x1.Idx → BitVec 32) (ix2 i 0) = _
  rw [W2_of_ne m ρ c main_v21 (by decide), head_labCol]
theorem labRow_eq (c : Dev nD) : PairBlocks.labRow (V2 m ρ) c = labs m c := by
  funext j
  show (W2 m ρ c (Proc.devRef .tc main_v22) : S1x8192.Idx → BitVec 32) (ix2 0 j) = _
  rw [W2_of_ne m ρ c main_v22 (by decide), head_labRow]

/-- and the class sizes. -/
theorem sizes_eq (c : Dev nD) : PairBlocks.sizes (V2 m ρ) c = Cert.RefIsSpec.ni (labels m c) := by
  funext i
  show (W2 m ρ c (Proc.devRef .tc main_v23) : S8192x1.Idx → EReal) (ix2 i 0) = _
  rw [W2_of_ne m ρ c main_v23 (by decide), head_sizes]

/-- The program's result: the specification's quantity of the launched features and labels. The eight entries the host
    adds are the row blocks' sums of block sums; regrouped, they are the sum of all pair contributions. -/
theorem result_eq (c : Dev nD) :
    (W4 m ρ c (Proc.devRef .tc main_v29) : S_.Idx → EReal) ix0
      = Cert.Spec.result (feats m c) (labs m c) (Cert.RefIsSpec.ni (labels m c)) (Cert.RefIsSpec.nu (labels m c)) := by
  rw [tail_read]
  have hcnt : (W3 m ρ c (Proc.devRef .tc main_v13) : S_.Idx → EReal) ix0 = Cert.RefIsSpec.nu (labels m c) := by
    rw [W3_of_ne m ρ c main_v13 (by decide), W2_of_ne m ρ c main_v13 (by decide), head_count]
  have hblk : ∀ k : Fin 8, (W3 m ρ c (Proc.devRef .tc main_v25) : S8x8x128.Idx → EReal) (ix3 k 0 0)
      = ∑ J : Fin 8, Cert.Spec.blockSum (feats m c) (labs m c) (Cert.RefIsSpec.ni (labels m c)) k J := fun k => by
    rw [W3_out m ρ c, PairsValue.pairs_final, unitRows_eq, labCol_eq, labRow_eq, sizes_eq]
    rfl
  have hsum : ((∑ k : Fin 8, (W3 m ρ c (Proc.devRef .tc main_v25) : S8x8x128.Idx → EReal) (ix3 k 0 0) : EReal))
      = ∑ k : Fin 8, ∑ J : Fin 8, Cert.Spec.blockSum (feats m c) (labs m c) (Cert.RefIsSpec.ni (labels m c)) k J :=
    Finset.sum_congr rfl fun k _ => hblk k
  rw [hcnt, hsum]
  unfold Cert.Spec.result
  rw [Cert.Spec.total_eq_blocks]

end Cert.KernelIdeal.Result

end
-- ==== Proof.lean ====
/-
  The certificate: a Pallas kernel for a feature-decoupling loss against its jnp reference, over 8192 samples of 1024
  features with integer labels.

  Both programs divide each row of the feature matrix by its Euclidean norm (clamped below by a small constant), form
  the squared similarity of every pair of distinct samples with equal labels, divide it by the size of the first
  sample's class times 1024, add everything up and divide by the number of classes present. The reference does this on
  whole 8192 x 8192 arrays. The kernel normalizes in a first pallas_call, block by block of 1024 rows; a second
  pallas_call walks the 8 x 8 blocks of pairs, adds each block's contributions by rows and then by columns into a
  one-entry accumulator that it resets at the start of every row of blocks and writes out at its end; the host adds the
  eight row totals and divides. At the ideal instance a float is an extended real and every operation is exact, a
  change of float format is the identity, and the two results are the same sum grouped differently.

  The three frame claims: each program terminates on every weakly fair execution, faults nowhere, and leaves its two
  arguments as launched. For the kernel (read at the word level and at the ideal instance, by one text generic in the
  instance) @main is four segments — host operations, the first region, the second region, host operations — chained
  through the contents every unscoped buffer holds between them; each region's pipeline is discharged by its body's
  triple at every grid point, the second region's by cases on the column-block index, its accumulator carried in the
  region's invariant, and its one array read through two windows split between them. For the reference the frame is its
  run with the result dropped. The ideal pass rewrote nothing, so the kernel's idealization is its own text.
-/
import proofs.«131435_j72533407695362_1_alg».proof.Defs
import proofs.«131435_j72533407695362_1_alg».proof.Proof.Gen.Kernel
import proofs.«131435_j72533407695362_1_alg».proof.Proof.Gen.KernelIdeal
import proofs.«131435_j72533407695362_1_alg».proof.Proof.Gen.ReferenceIdeal
import proofs.«131435_j72533407695362_1_alg».proof.Proof.Gen.Pre_finite_inputs
import proofs.«131435_j72533407695362_1_alg».proof.Proof.Kernel.Whole
import proofs.«131435_j72533407695362_1_alg».proof.Proof.KernelIdeal.Whole
import proofs.«131435_j72533407695362_1_alg».proof.Proof.RefRun
import proofs.«131435_j72533407695362_1_alg».proof.Proof.RefRead
import proofs.«131435_j72533407695362_1_alg».proof.Proof.RefIsSpec
import proofs.«131435_j72533407695362_1_alg».proof.Proof.KernelIdeal.Result
import Idealize.ShloMosaic.Lib.ValueIdx
import Idealize.ShloMosaic.Adequacy
import Idealize.ShloMosaic.Init

noncomputable section

namespace Cert.Proof

open Idealize.ShloMosaic Idealize.SL.Sem

theorem frame_kernel : Cert.frame_Kernel := fun m ρ _ => Cert.Kernel.Whole.frame (F := Bits) m ρ
theorem frame_kernelIdeal : Cert.frame_KernelIdeal := fun m ρ _ => Cert.KernelIdeal.Whole.frame (F := Ideal) m ρ
theorem frame_reference : Cert.frame_ReferenceIdeal := fun m ρ _ =>
  (θ_run Cert.ReferenceIdeal.defs _ _).mono (fun _ h c => (h c).2) (Cert.ReferenceIdeal.ValueP.run (F := Ideal) m ρ)
theorem preserves : Cert.preserves_Kernel_KernelIdeal := trivial
/-- From memories that agree on the arguments both idealized programs run to the same number: the kernel's result buffer
    holds the last boundary's contents, which are the specification's quantity of the launched arguments; the reference's
    holds its last stage, which is the same quantity of its own arguments. -/
theorem algebraic : Cert.algebraic_KernelIdeal_ReferenceIdeal := by
  intro m ρ m' ρ' _ hagree
  refine ⟨fun c => Cert.KernelIdeal.Whole.W4 (F := Ideal) m ρ c (Proc.devRef .tc Cert.KernelIdeal.main_v29), ?_, ?_⟩
  · exact (θ_run Cert.KernelIdeal.defs _ _).mono (fun _ h c =>
      ⟨h c _ (Cert.KernelIdeal.Whole.mem_uc Cert.KernelIdeal.main_v29 (by decide)),
       (h c _ (Cert.KernelIdeal.Whole.mem_uc Cert.KernelIdeal.main_arg0 (by decide))).trans (Cert.KernelIdeal.Whole.W4_main_arg0 m ρ c),
       (h c _ (Cert.KernelIdeal.Whole.mem_uc Cert.KernelIdeal.main_arg1 (by decide))).trans (Cert.KernelIdeal.Whole.W4_main_arg1 m ρ c)⟩)
      (Cert.KernelIdeal.Whole.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v47_eq]
    funext i
    rw [Idealize.ShloMosaic.ValueIdx.eq_ix0 i, Cert.RefIsSpec.ref_eq, (hagree c).1, (hagree c).2]
    exact (Cert.KernelIdeal.Result.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
